-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S4096x4096 .f32) (main_arg8 : FVec F S16x4096 .f32) (main_arg9 : FVec F S4096x16 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S16x4096 .f32 := Host.absf main_arg8
  let main_cst_14 : FVec F S_ .f32 := constant S_ .f32 0x7F800000#32
  let main_v40 : FVec F S16x4096 .f32 := broadcastInDim S16x4096 ![] bcast_S_S16x4096 main_cst_14
  let main_v41 : IVec S16x4096 1 := cmpf .olt main_v39 main_v40
  let main_c_15 : IVec S_ 1 := constantI S_ 1 1#1
  let main_v42 : IVec S_ 1 := (fun x v => Host.reduce IntOp.andi x v reducesTo_S16x4096_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  main_v48

def fn_part1 {F : FTy → Type} [FloatOps F] (main_arg4 : FVec F S4096x4096 .f32) (main_arg5 : FVec F S16x4096 .f32) (main_arg6 : FVec F S4096x16 .f32) (main_arg7 : FVec F S4096x4096 .f32) (main_arg8 : FVec F S16x4096 .f32) (main_arg9 : FVec F S4096x16 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S16x4096 .f32 := Host.absf main_arg5
  let main_cst_8 : FVec F S_ .f32 := constant S_ .f32 0x7F800000#32
  let main_v25 : FVec F S16x4096 .f32 := broadcastInDim S16x4096 ![] bcast_S_S16x4096 main_cst_8
  let main_v26 : IVec S16x4096 1 := cmpf .olt main_v24 main_v25
  let main_c_9 : IVec S_ 1 := constantI S_ 1 1#1
  let main_v27 : IVec S_ 1 := (fun x v => Host.reduce IntOp.andi x v reducesTo_S16x4096_S_d0_1 h_S_) main_v26 main_c_9
  let main_v28 : IVec S_ 1 := andi main_v23 main_v27
  let main_v29 : FVec F S4096x16 .f32 := Host.absf main_arg6
  let main_cst_10 : FVec F S_ .f32 := constant S_ .f32 0x7F800000#32
  let main_v30 : FVec F S4096x16 .f32 := broadcastInDim S4096x16 ![] bcast_S_S4096x16 main_cst_10
  let main_v31 : IVec S4096x16 1 := cmpf .olt main_v29 main_v30
  let main_c_11 : IVec S_ 1 := constantI S_ 1 1#1
  let main_v32 : IVec S_ 1 := (fun x v => Host.reduce IntOp.andi x v reducesTo_S4096x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096x4096 .f32) (main_arg5 : FVec F S16x4096 .f32) (main_arg6 : FVec F S4096x16 .f32) (main_arg7 : FVec F S4096x4096 .f32) (main_arg8 : FVec F S16x4096 .f32) (main_arg9 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S8192x4096 : Shape := ⟨2, ![8192, 4096]⟩
abbrev S_ : Shape := ⟨0, ![]⟩
abbrev S12288x4096 : Shape := ⟨2, ![12288, 4096]⟩
abbrev S8192x12288 : Shape := ⟨2, ![8192, 12288]⟩
abbrev S1024x2048 : Shape := ⟨2, ![1024, 2048]⟩
abbrev S1024x1024 : Shape := ⟨2, ![1024, 1024]⟩

abbrev nBuf : Space → Nat
  | .hbm => 38
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .f32⟩
  | .hbm, ⟨5, _⟩ => ⟨S16x4096, .f32⟩
  | .hbm, ⟨6, _⟩ => ⟨S4096x16, .f32⟩
  | .hbm, ⟨7, _⟩ => ⟨S4096x4096, .f32⟩
  | .hbm, ⟨8, _⟩ => ⟨S16x4096, .f32⟩
  | .hbm, ⟨9, _⟩ => ⟨S4096x16, .f32⟩
  | .hbm, ⟨10, _⟩ => ⟨S8192x4096, .f32⟩
  | .hbm, ⟨11, _⟩ => ⟨S8192x4096, .bf16⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .bf16⟩
  | .hbm, ⟨30, _⟩ => ⟨S12288x4096, .bf16⟩
  | .hbm, ⟨31, _⟩ => ⟨S8192x12288, .f32⟩
  | .hbm, ⟨32, _⟩ => ⟨S8192x4096, .f32⟩
  | .hbm, ⟨33, _⟩ => ⟨S4x2048x4096, .f32⟩
  | .hbm, ⟨34, _⟩ => ⟨S8192x4096, .f32⟩
  | .hbm, ⟨35, _⟩ => ⟨S4x2048x4096, .f32⟩
  | .hbm, ⟨36, _⟩ => ⟨S8192x4096, .f32⟩
  | .hbm, ⟨37, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S_S4096x4096 : S_.BroadcastsInDim S4096x4096 (![] : Fin 0 → Fin S4096x4096.rank)
  concatenates_S4096x4096_S4096x4096_S4096x4096_S12288x4096_d0 : Shape.Concatenates [S4096x4096, S4096x4096, S4096x4096] S12288x4096 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S8192x12288_S8192x4096_0_0 : S8192x12288.Slices ![0, 0] S8192x4096
  shapeCasts_S8192x4096_S4x2048x4096 : S8192x4096.ShapeCasts S4x2048x4096
  slices_S8192x12288_S8192x4096_0_4096 : S8192x12288.Slices ![0, 4096] S8192x4096
  slices_S8192x12288_S8192x4096_0_8192 : S8192x12288.Slices ![0, 8192] S8192x4096
  dot_S4096x16_S16x4096_S4096x4096_1_0_0_1_n_n_wf : DotDims.WF S4096x16 S16x4096 S4096x4096 [1] [0] [0] [1] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S12288x4096.size a
  hwx0_1 : ∀ i : grid0.Coords, EltTy.bits .bf16 = 32 ∨ (Rect.block (s := S12288x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x12288.size a
  hwx0_2 : ∀ i : grid0.Coords, EltTy.bits .f32 = 32 ∨ (Rect.block (s := S8192x12288) S1024x1024.size (cc0_transform_2 i) (hinb0_2 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .f32⟩
  | .hbm, ⟨5, _⟩ => ⟨S16x4096, .f32⟩
  | .hbm, ⟨6, _⟩ => ⟨S4096x16, .f32⟩
  | .hbm, ⟨7, _⟩ => ⟨S4096x4096, .f32⟩
  | .hbm, ⟨8, _⟩ => ⟨S16x4096, .f32⟩
  | .hbm, ⟨9, _⟩ => ⟨S4096x16, .f32⟩
  | .hbm, ⟨10, _⟩ => ⟨S4x2048x4096, .f32⟩
  | .hbm, ⟨11, _⟩ => ⟨S4x2048x16, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x16, .f32⟩
  | .hbm, ⟨19, _⟩ => ⟨S4x2048x4096, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x16, .f32⟩
  | .hbm, ⟨26, _⟩ => ⟨S4x2048x4096, .f32⟩
  | .hbm, ⟨27, _⟩ => ⟨S_, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.FrameB.Shared.lean ====
/-
  The fused projection call, seen from @main: what the call finds, what the lines after it touch, and the vocabulary
  the two runs of the kernel body are stated over.

  @main is twenty-one host lines (flatten the activations, fold each low-rank correction into its weight, stack the three
  corrected weights), the call, and six host lines (cut the stacked result into its three column bands and restore the
  batch axis).  The call walks a grid of 8 row blocks × 12 column blocks × 2 halves of the contracted axis.  On the first
  half the body clears its accumulator, on both halves it adds the block product, and on the second half it copies the
  accumulator into the result block: so the body has two control cases, told apart by the parity of the point's position,
  the result block is idle on the first half, and the accumulator is carried from each first half to its second.
-/
import proofs.«109549_j17368847745269_2_alg».proof.Proof.Gen.Kernel.Launch
import proofs.«109549_j17368847745269_2_alg».proof.Proof.Gen.Kernel.Skeleton
import proofs.«109549_j17368847745269_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- What the device's buffers hold when the call is entered: the launch contents after the host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the call, the call, and the lines after it as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the call touch only the call's arrays and buffers the call never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the call's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No line before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No line before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 8: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No line before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 9: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block, fetched there or not, whenever the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the stacked weight's staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that names what every array of the call and every other buffer ends with, the ten arguments end as
    launched: none is an array of the call, and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's two branch conditions -/

/-- "This is the first half of the contracted axis": the guard of the accumulator's reset. -/
abbrev cond0_0 (i : grid0.Coords) : Prop := (Scalar.cmpi .ne (Scalar.extui (Scalar.cmpi .eq (BitVec.ofNat 32 (i 2).val) 0#32)) 0#32) = 1#1
/-- It holds at the even positions of the grid's walk. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last half": the guard of the copy into the result block. -/
abbrev cond0_1 (i : grid0.Coords) : Prop := k0_cond2 i = 1#1
/-- It holds at the odd positions. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- On a first half nothing is stored into the result block: the window is idle there, -/
theorem idleAt0_2_first : ∀ t : Fin cfg0.N, cond0_0 (grid0.coords t) → ¬cond0_1 (grid0.coords t) → cfg0.idle 2 (grid0.coords t) = true := by decide +kernel
/-- and its block is not written back there. -/
theorem noFlush0_2_first : ∀ t : Fin cfg0.N, cond0_0 (grid0.coords t) → ¬cond0_1 (grid0.coords t) → (cfg0.win 2).flush t = false := by decide +kernel
/-- On a last half the result block is stored. -/
theorem liveAt0_2_last : ∀ t : Fin cfg0.N, ¬cond0_0 (grid0.coords t) → cond0_1 (grid0.coords t) → cfg0.idle 2 (grid0.coords t) = false := by decide +kernel

/-! ## The memrefs the body is called with -/

/-- One staging buffer of the result window, through which its contents are stated. -/
abbrev VO0_2 : View sig .tc .vmem S1024x1024 .f32 := (Memref.whole cc0_stg2_0 : Memref sig .tc .vmem S1024x1024 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole buffer of the kernel's own, passed beside the windows. -/
abbrev scM0_0 : Memref sig .tc .vmem S1024x1024 .f32 := Memref.whole cc0_scratch0
/-- The accumulator as a view: what it holds is stated through it. -/
abbrev VS0_0 : View sig .tc .vmem S1024x1024 .f32 := scM0_0.view

/-- What the call hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.FrameB.CaseFirst.lean ====
/-
  The kernel body on a first half of the contracted axis.

  The reset branch is taken: the accumulator is read (a value nothing uses), cleared, then read again and overwritten
  with itself plus the product of the two input blocks.  The copy branch is not taken: nothing is stored into the result
  block, whose staging buffer is handed back as it was found.  The accumulator may hold anything on entry; on exit it
  holds the two stores, the later one covering it.
-/
import proofs.«109549_j17368847745269_2_alg».proof.Proof.FrameB.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator on a first half (latest first), with the run: from whole staging
    memrefs — the two input blocks at their contents, the result block's buffer at any contents `xi2`, the accumulator at
    anything — the body runs to its continuation, the inputs and the result buffer as they were and the accumulator with
    those stores written.  Both conditionals are decided by the case's hypotheses. -/
noncomputable def runFirst (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_matmul_kernel i arg3 harg3 arg4 harg4 arg5 harg5 arg6 harg6) K } := by
  refine ⟨[], ?_, fun xi2 E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frame

end
-- ==== Proof.FrameB.CaseLast.lean ====
/-
  The kernel body on a last half of the contracted axis.

  The reset branch is not taken: the accumulator, which holds what the first half left (`xs0`), is read and overwritten
  with itself plus the product of the two input blocks.  The copy branch is taken: the accumulator is read again and
  stored over the whole result block.
-/
import proofs.«109549_j17368847745269_2_alg».proof.Proof.FrameB.CaseFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the result block's buffer and in the accumulator on a last half (latest first), with
    the run: from whole staging memrefs — the two input blocks at their contents, the result buffer at anything, the
    accumulator at what the first half left — the body runs to its continuation, the inputs as they were and the other two
    with those stores written. -/
noncomputable def runLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_matmul_kernel i arg3 harg3 arg4 harg4 arg5 harg5 arg6 harg6) K } := by
  refine ⟨?_, ?_, fun E K => ?run⟩
  case run =>
    simp only [cc0__fused_matmul_kernel_eq_skeleton]; unfold cc0__fused_matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Frame

end
-- ==== Proof.FrameB.Frame.lean ====
/-
  The call's frame: what the result block's buffer and the accumulator hold after every point of the grid's walk, the
  proof data built from that, the body obligation at a generic point, the run of @main and the frame claim.

  After an even position (a first half) the accumulator holds the first-half stores read back, and the result buffer
  is untouched; after an odd position (a last half) the accumulator holds that case's stores over what the position
  before left, and the result buffer holds the copy.  The invariant carried between points is the accumulator at exactly
  those contents (anything before the first point) and the generator register at some state.
-/
import proofs.«109549_j17368847745269_2_alg».proof.Proof.FrameB.CaseLast

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- On a first half nothing is stored into the result block: a placeholder nothing consults (the window is idle and not
    written back there). -/
def outFirst (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) : Vec F S1024x1024 .f32 :=
  VO0_2.read (Elt F) (VO0_2.writes (Elt F) VO0_2.junk (runFirst c i arg3 harg3 arg4 harg4 arg5 harg5 arg6 harg6 hc0 hc1 x0 x1).1)

/-- The first half's stores cover the accumulator. -/
theorem accCoverFirst (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) (y : S1024x1024.Idx) :
    ∃ pc ∈ (runFirst c i arg3 harg3 arg4 harg4 arg5 harg5 arg6 harg6 hc0 hc1 x0 x1).2.1, y ∈ pc.1.set :=
  View.cover_of_tiledL (runFirst c i arg3 harg3 arg4 harg4 arg5 harg5 arg6 harg6 hc0 hc1 x0 x1).2.1 S1024x1024.size (by sl_kernel_rfl) y

/-- What a first half leaves in the accumulator: its stores read back. -/
def accFirst (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) : Vec F S1024x1024 .f32 :=
  VS0_0.read (Elt F) (VS0_0.writes (Elt F) VS0_0.junk (runFirst c i arg3 harg3 arg4 harg4 arg5 harg5 arg6 harg6 hc0 hc1 x0 x1).2.1)

/-- The last half's store covers the result block. -/
theorem outCoverLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) (y : S1024x1024.Idx) :
    ∃ pc ∈ (runLast c i arg3 harg3 arg4 harg4 arg5 harg5 arg6 harg6 hc0 hc1 x0 x1 xs0).1, y ∈ pc.1.set :=
  View.cover_of_tiledL (runLast c i arg3 harg3 arg4 harg4 arg5 harg5 arg6 harg6 hc0 hc1 x0 x1 xs0).1 S1024x1024.size (by sl_kernel_rfl) y

/-- What a last half leaves in the result block's buffer. -/
def outLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) : Vec F S1024x1024 .f32 :=
  VO0_2.read (Elt F) (VO0_2.writes (Elt F) VO0_2.junk (runLast c i arg3 harg3 arg4 harg4 arg5 harg5 arg6 harg6 hc0 hc1 x0 x1 xs0).1)

/-- The last half's store covers the accumulator. -/
theorem accCoverLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) (y : S1024x1024.Idx) :
    ∃ pc ∈ (runLast c i arg3 harg3 arg4 harg4 arg5 harg5 arg6 harg6 hc0 hc1 x0 x1 xs0).2.1, y ∈ pc.1.set :=
  View.cover_of_tiledL (runLast c i arg3 harg3 arg4 harg4 arg5 harg5 arg6 harg6 hc0 hc1 x0 x1 xs0).2.1 S1024x1024.size (by sl_kernel_rfl) y

/-- What a last half leaves in the accumulator. -/
def accLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) : Vec F S1024x1024 .f32 :=
  VS0_0.read (Elt F) (VS0_0.writes (Elt F) VS0_0.junk (runLast c i arg3 harg3 arg4 harg4 arg5 harg5 arg6 harg6 hc0 hc1 x0 x1 xs0).2.1)

/-! ## Point by point -/

/-- An odd position is a last half and not a first half. -/
theorem odd_last (t : Fin cfg0.N) (h0 : ¬t.val % 2 = 0) : ¬cond0_0 (grid0.coords t) ∧ cond0_1 (grid0.coords t) :=
  ⟨fun h => h0 ((hcond0_0 t).mp h), (hcond0_1 t).mpr (by omega)⟩
/-- An even position is a first half and not a last half. -/
theorem even_first (t : Fin cfg0.N) (h0 : t.val % 2 = 0) : cond0_0 (grid0.coords t) ∧ ¬cond0_1 (grid0.coords t) :=
  ⟨(hcond0_0 t).mpr h0, fun h => by have := (hcond0_1 t).mp h; omega⟩

/-- The result block's buffer and the accumulator after the body at position `n`: the case the position's parity
    selects, run on the position's memrefs and input blocks, a last half over what the position before left in the
    accumulator. -/
def holdsAt (c : Dev nD) : (n : ℕ) → n < cfg0.N → Vec F S1024x1024 .f32 × Vec F S1024x1024 .f32
  | 0, hn => (outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (even_first ⟨0, hn⟩ (Nat.zero_mod _)).1 (even_first ⟨0, hn⟩ (Nat.zero_mod _)).2 (iblk m c 0 ⟨0, hn⟩) (iblk m c 1 ⟨0, hn⟩),
      accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (even_first ⟨0, hn⟩ (Nat.zero_mod _)).1 (even_first ⟨0, hn⟩ (Nat.zero_mod _)).2 (iblk m c 0 ⟨0, hn⟩) (iblk m c 1 ⟨0, hn⟩))
  | n + 1, hn =>
    if h0 : (n + 1) % 2 = 0 then
      (outFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (even_first ⟨n + 1, hn⟩ h0).1 (even_first ⟨n + 1, hn⟩ h0).2 (iblk m c 0 ⟨n + 1, hn⟩) (iblk m c 1 ⟨n + 1, hn⟩),
        accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (even_first ⟨n + 1, hn⟩ h0).1 (even_first ⟨n + 1, hn⟩ h0).2 (iblk m c 0 ⟨n + 1, hn⟩) (iblk m c 1 ⟨n + 1, hn⟩))
    else
      (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (odd_last ⟨n + 1, hn⟩ h0).1 (odd_last ⟨n + 1, hn⟩ h0).2 (iblk m c 0 ⟨n + 1, hn⟩) (iblk m c 1 ⟨n + 1, hn⟩) (holdsAt c n (Nat.lt_of_succ_lt hn)).2,
        accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (odd_last ⟨n + 1, hn⟩ h0).1 (odd_last ⟨n + 1, hn⟩ h0).2 (iblk m c 0 ⟨n + 1, hn⟩) (iblk m c 1 ⟨n + 1, hn⟩) (holdsAt c n (Nat.lt_of_succ_lt hn)).2)

/-- At an even position: the first half's contents. -/
theorem holdsAt_even (c : Dev nD) (t : Fin cfg0.N) (h0 : t.val % 2 = 0) :
    holdsAt m c t.val t.isLt = (outFirst c (grid0.coords t) (ms0_0 t) (hs0_0 t) (ms0_1 t) (hs0_1 t) (ms0_2 t) (hs0_2 t) scM0_0 (Memref.isWhole_whole _) (even_first t h0).1 (even_first t h0).2 (iblk m c 0 t) (iblk m c 1 t),
      accFirst c (grid0.coords t) (ms0_0 t) (hs0_0 t) (ms0_1 t) (hs0_1 t) (ms0_2 t) (hs0_2 t) scM0_0 (Memref.isWhole_whole _) (even_first t h0).1 (even_first t h0).2 (iblk m c 0 t) (iblk m c 1 t)) := by
  obtain ⟨n, hn⟩ := t
  cases n with
  | zero => exact rfl
  | succ n => exact (dif_pos h0).trans rfl

/-- At an odd position: the last half's contents, over what the position before left. -/
theorem holdsAt_odd (c : Dev nD) (t : Fin cfg0.N) (h0 : ¬t.val % 2 = 0) :
    holdsAt m c t.val t.isLt = (outLast c (grid0.coords t) (ms0_0 t) (hs0_0 t) (ms0_1 t) (hs0_1 t) (ms0_2 t) (hs0_2 t) scM0_0 (Memref.isWhole_whole _) (odd_last t h0).1 (odd_last t h0).2 (iblk m c 0 t) (iblk m c 1 t) (holdsAt m c (t.val - 1) (Nat.lt_of_le_of_lt (Nat.sub_le _ _) t.isLt)).2,
      accLast c (grid0.coords t) (ms0_0 t) (hs0_0 t) (ms0_1 t) (hs0_1 t) (ms0_2 t) (hs0_2 t) scM0_0 (Memref.isWhole_whole _) (odd_last t h0).1 (odd_last t h0).2 (iblk m c 0 t) (iblk m c 1 t) (holdsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the accumulator at anything; afterwards the accumulator at
    what the position before left; always the generator register at some state. -/
def Carried (c : Dev nD) : (n : ℕ) → n ≤ cfg0.N → sProp 𝕄
  | 0, _ => Pipeline.ΦA spec0 c
  | n + 1, hn => iprop(iprop(owns (c : Thread nD τ) scM0_0 fullShare ((holdsAt m c n hn).2)) ∗ (∃ r, prngReg c r))

theorem Carried_zero (c : Dev nD) (n : ℕ) (h : n ≤ cfg0.N) (hz : n = 0) : Carried m c n h = Pipeline.ΦA spec0 c := by
  subst hz; rfl

theorem Carried_succ (c : Dev nD) (n : ℕ) (hn : n < cfg0.N) :
    Carried m c (n + 1) hn = iprop(iprop(owns (c : Thread nD τ) scM0_0 fullShare ((holdsAt m c n hn).2)) ∗ (∃ r, prngReg c r)) := rfl

theorem Carried_pos (c : Dev nD) (n : ℕ) (h : n ≤ cfg0.N) (hz : n ≠ 0) :
    Carried m c n h = iprop(iprop(owns (c : Thread nD τ) scM0_0 fullShare ((holdsAt m c (n - 1) (by omega)).2)) ∗ (∃ r, prngReg c r)) := by
  cases n with
  | zero => exact absurd rfl hz
  | succ n => rfl

/-! ## The proof data -/

/-- The call's proof data on one core: the arrays as the call finds them; after the body each input's buffer at its
    block and the result's at `holdsAt`; the invariant `Carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (holdsAt m c t.val t.isLt).1
  Φ t := Carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Carried_castSucc (c : Dev nD) (t : Fin cfg0.N) :
    (dats m 0 c).Φ t.castSucc = Carried m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (holdsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point.  The inputs' buffers hold their blocks; the position's parity says which case runs; the
    invariant hands the body the accumulator (at what the position before left, or at anything before the first point)
    and takes it back at this position's contents, the case's stores covering it; on a first half the result buffer is
    handed back untouched, on a last half its store covers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = Carried m c (t.val + 1) t.isLt from rfl, Carried_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · rw [Dat.leavesExact_idle (dats m 0 c) 2 t (idleAt0_2_first t (even_first t h0).1 (even_first t h0).2) (noFlush0_2_first t (even_first t h0).1 (even_first t h0).2)]
    rw [holdsAt_even m c t h0]
    unfold accFirst; (try dsimp only)
    by_cases hz : t.val = 0
    · rw [Carried_castSucc m c t, Carried_zero m c _ _ hz, PhiA0_eq]
      iintro ⟨⟨HS0, Hg⟩, Ho, ⟨%d0, H0⟩, ⟨%d1, H1⟩, ⟨%d2, H2⟩⟩
      iapply ((runFirst c (grid0.coords t) _ _ _ _ _ _ _ _ (even_first t h0).1 (even_first t h0).2 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (accCoverFirst c _ _ _ _ _ _ _ _ _ _ _ _ _)
        iexact Hg
      isplitl [Ho]; · iexact Ho
      isplitl [H0]; · iexact H0
      isplitl [H1]; · iexact H1
      iexists _; iexact H2
    · rw [Carried_castSucc m c t, Carried_pos m c _ _ hz]
      iintro ⟨⟨HS0, Hg⟩, Ho, ⟨%d0, H0⟩, ⟨%d1, H1⟩, ⟨%d2, H2⟩⟩
      iapply ((runFirst c (grid0.coords t) _ _ _ _ _ _ _ _ (even_first t h0).1 (even_first t h0).2 (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (accCoverFirst c _ _ _ _ _ _ _ _ _ _ _ _ _)
        iexact Hg
      isplitl [Ho]; · iexact Ho
      isplitl [H0]; · iexact H0
      isplitl [H1]; · iexact H1
      iexists _; iexact H2
  · rw [show (dats m 0 c).leavesExact 2 t = owns (c : Thread nD τ) (ms0_2 t) fullShare ((dats m 0 c).after 2 t) from by
      unfold Dat.leavesExact; rw [liveAt0_2_last t (odd_last t h0).1 (odd_last t h0).2], after0_2]
    rw [holdsAt_odd m c t h0]
    unfold outLast accLast; (try dsimp only)
    have hz : t.val ≠ 0 := fun h => h0 (by rw [h])
    rw [Carried_castSucc m c t, Carried_pos m c _ _ hz]
    iintro ⟨⟨HS0, Hg⟩, Ho, ⟨%d0, H0⟩, ⟨%d1, H1⟩, ⟨%d2, H2⟩⟩
    iapply ((runLast c (grid0.coords t) _ _ _ _ _ _ _ _ (odd_last t h0).1 (odd_last t h0).2 (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (accCoverLast c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (outCoverLast c _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = Carried m c 0 (Nat.zero_le _) from rfl, Carried_zero m c 0 _ rfl]
  try exact Idealize.SL.BI.Entails.refl _

/-- After any point the invariant gives that back, the accumulator's contents forgotten. -/
theorem Carried_out (c : Dev nD) (t : Fin (cfg0.N + 1)) (ht : t.val ≠ 0) : (dats m 0 c).Φ t ⊢ Pipeline.ΦA spec0 c := by
  rw [show (dats m 0 c).Φ t = Carried m c t.val (Nat.le_of_lt_succ t.isLt) from rfl, Carried_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Carried_out m c _ (by rw [Fin.val_last]; have : cfg0.N = 192 := N_0; omega)

/-! ## The run and the frame -/

set_option backward.isDefEq.respectTransparency.types false in
/-- Every weakly fair execution of @main terminates, nothing faulting, every array of the call ending at what the
    proof data says and every other buffer as the lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its ten arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.Kernel.Frame

end
-- ==== Proof.FrameI.Shared.lean ====
/-
  The fused projection call, seen from @main: what the call finds, what the lines after it touch, and the vocabulary
  the two runs of the kernel body are stated over.

  @main is twenty-one host lines (flatten the activations, fold each low-rank correction into its weight, stack the three
  corrected weights), the call, and six host lines (cut the stacked result into its three column bands and restore the
  batch axis).  The call walks a grid of 8 row blocks × 12 column blocks × 2 halves of the contracted axis.  On the first
  half the body clears its accumulator, on both halves it adds the block product, and on the second half it copies the
  accumulator into the result block: so the body has two control cases, told apart by the parity of the point's position,
  the result block is idle on the first half, and the accumulator is carried from each first half to its second.
-/
import proofs.«109549_j17368847745269_2_alg».proof.Proof.Gen.KernelIdeal.Launch
import proofs.«109549_j17368847745269_2_alg».proof.Proof.Gen.KernelIdeal.Skeleton
import proofs.«109549_j17368847745269_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- What the device's buffers hold when the call is entered: the launch contents after the host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the call, the call, and the lines after it as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the call touch only the call's arrays and buffers the call never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the call's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No line before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No line before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 8: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No line before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the call writes argument 9: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The activations' staging buffer holds the point's block, fetched there or not, whenever the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the stacked weight's staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that names what every array of the call and every other buffer ends with, the ten arguments end as
    launched: none is an array of the call, and no host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's two branch conditions -/

/-- "This is the first half of the contracted axis": the guard of the accumulator's reset. -/
abbrev cond0_0 (i : grid0.Coords) : Prop := (Scalar.cmpi .ne (Scalar.extui (Scalar.cmpi .eq (BitVec.ofNat 32 (i 2).val) 0#32)) 0#32) = 1#1
/-- It holds at the even positions of the grid's walk. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last half": the guard of the copy into the result block. -/
abbrev cond0_1 (i : grid0.Coords) : Prop := k0_cond2 i = 1#1
/-- It holds at the odd positions. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- On a first half nothing is stored into the result block: the window is idle there, -/
theorem idleAt0_2_first : ∀ t : Fin cfg0.N, cond0_0 (grid0.coords t) → ¬cond0_1 (grid0.coords t) → cfg0.idle 2 (grid0.coords t) = true := by decide +kernel
/-- and its block is not written back there. -/
theorem noFlush0_2_first : ∀ t : Fin cfg0.N, cond0_0 (grid0.coords t) → ¬cond0_1 (grid0.coords t) → (cfg0.win 2).flush t = false := by decide +kernel
/-- On a last half the result block is stored. -/
theorem liveAt0_2_last : ∀ t : Fin cfg0.N, ¬cond0_0 (grid0.coords t) → cond0_1 (grid0.coords t) → cfg0.idle 2 (grid0.coords t) = false := by decide +kernel

/-! ## The memrefs the body is called with -/

/-- One staging buffer of the result window, through which its contents are stated. -/
abbrev VO0_2 : View sig .tc .vmem S1024x1024 .f32 := (Memref.whole cc0_stg2_0 : Memref sig .tc .vmem S1024x1024 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole buffer of the kernel's own, passed beside the windows. -/
abbrev scM0_0 : Memref sig .tc .vmem S1024x1024 .f32 := Memref.whole cc0_scratch0
/-- The accumulator as a view: what it holds is stated through it. -/
abbrev VS0_0 : View sig .tc .vmem S1024x1024 .f32 := scM0_0.view

/-- What the call hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.FrameI.CaseFirst.lean ====
/-
  The kernel body on a first half of the contracted axis.

  The reset branch is taken: the accumulator is read (a value nothing uses), cleared, then read again and overwritten
  with itself plus the product of the two input blocks.  The copy branch is not taken: nothing is stored into the result
  block, whose staging buffer is handed back as it was found.  The accumulator may hold anything on entry; on exit it
  holds the two stores, the later one covering it.
-/
import proofs.«109549_j17368847745269_2_alg».proof.Proof.FrameI.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the accumulator on a first half (latest first), with the run: from whole staging
    memrefs — the two input blocks at their contents, the result block's buffer at any contents `xi2`, the accumulator at
    anything — the body runs to its continuation, the inputs and the result buffer as they were and the accumulator with
    those stores written.  Both conditionals are decided by the case's hypotheses. -/
noncomputable def runFirst (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_matmul_kernel i arg3 harg3 arg4 harg4 arg5 harg5 arg6 harg6) K } := by
  refine ⟨[], ?_, fun xi2 E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frame

end
-- ==== Proof.FrameI.CaseLast.lean ====
/-
  The kernel body on a last half of the contracted axis.

  The reset branch is not taken: the accumulator, which holds what the first half left (`xs0`), is read and overwritten
  with itself plus the product of the two input blocks.  The copy branch is taken: the accumulator is read again and
  stored over the whole result block.
-/
import proofs.«109549_j17368847745269_2_alg».proof.Proof.FrameI.CaseFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the result block's buffer and in the accumulator on a last half (latest first), with
    the run: from whole staging memrefs — the two input blocks at their contents, the result buffer at anything, the
    accumulator at what the first half left — the body runs to its continuation, the inputs as they were and the other two
    with those stores written. -/
noncomputable def runLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_matmul_kernel i arg3 harg3 arg4 harg4 arg5 harg5 arg6 harg6) K } := by
  refine ⟨?_, ?_, fun E K => ?run⟩
  case run =>
    simp only [cc0__fused_matmul_kernel_eq_skeleton]; unfold cc0__fused_matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Frame

end
-- ==== Proof.FrameI.Frame.lean ====
/-
  The call's frame: what the result block's buffer and the accumulator hold after every point of the grid's walk, the
  proof data built from that, the body obligation at a generic point, the run of @main and the frame claim.

  After an even position (a first half) the accumulator holds the first-half stores read back, and the result buffer
  is untouched; after an odd position (a last half) the accumulator holds that case's stores over what the position
  before left, and the result buffer holds the copy.  The invariant carried between points is the accumulator at exactly
  those contents (anything before the first point) and the generator register at some state.
-/
import proofs.«109549_j17368847745269_2_alg».proof.Proof.FrameI.CaseLast

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- On a first half nothing is stored into the result block: a placeholder nothing consults (the window is idle and not
    written back there). -/
def outFirst (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) : Vec F S1024x1024 .f32 :=
  VO0_2.read (Elt F) (VO0_2.writes (Elt F) VO0_2.junk (runFirst c i arg3 harg3 arg4 harg4 arg5 harg5 arg6 harg6 hc0 hc1 x0 x1).1)

/-- The first half's stores cover the accumulator. -/
theorem accCoverFirst (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) (y : S1024x1024.Idx) :
    ∃ pc ∈ (runFirst c i arg3 harg3 arg4 harg4 arg5 harg5 arg6 harg6 hc0 hc1 x0 x1).2.1, y ∈ pc.1.set :=
  View.cover_of_tiledL (runFirst c i arg3 harg3 arg4 harg4 arg5 harg5 arg6 harg6 hc0 hc1 x0 x1).2.1 S1024x1024.size (by sl_kernel_rfl) y

/-- What a first half leaves in the accumulator: its stores read back. -/
def accFirst (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S1024x2048 .bf16) : Vec F S1024x1024 .f32 :=
  VS0_0.read (Elt F) (VS0_0.writes (Elt F) VS0_0.junk (runFirst c i arg3 harg3 arg4 harg4 arg5 harg5 arg6 harg6 hc0 hc1 x0 x1).2.1)

/-- The last half's store covers the result block. -/
theorem outCoverLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) (y : S1024x1024.Idx) :
    ∃ pc ∈ (runLast c i arg3 harg3 arg4 harg4 arg5 harg5 arg6 harg6 hc0 hc1 x0 x1 xs0).1, y ∈ pc.1.set :=
  View.cover_of_tiledL (runLast c i arg3 harg3 arg4 harg4 arg5 harg5 arg6 harg6 hc0 hc1 x0 x1 xs0).1 S1024x1024.size (by sl_kernel_rfl) y

/-- What a last half leaves in the result block's buffer. -/
def outLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) : Vec F S1024x1024 .f32 :=
  VO0_2.read (Elt F) (VO0_2.writes (Elt F) VO0_2.junk (runLast c i arg3 harg3 arg4 harg4 arg5 harg5 arg6 harg6 hc0 hc1 x0 x1 xs0).1)

/-- The last half's store covers the accumulator. -/
theorem accCoverLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) (y : S1024x1024.Idx) :
    ∃ pc ∈ (runLast c i arg3 harg3 arg4 harg4 arg5 harg5 arg6 harg6 hc0 hc1 x0 x1 xs0).2.1, y ∈ pc.1.set :=
  View.cover_of_tiledL (runLast c i arg3 harg3 arg4 harg4 arg5 harg5 arg6 harg6 hc0 hc1 x0 x1 xs0).2.1 S1024x1024.size (by sl_kernel_rfl) y

/-- What a last half leaves in the accumulator. -/
def accLast (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S1024x2048 .bf16) (xs0 : Vec F S1024x1024 .f32) : Vec F S1024x1024 .f32 :=
  VS0_0.read (Elt F) (VS0_0.writes (Elt F) VS0_0.junk (runLast c i arg3 harg3 arg4 harg4 arg5 harg5 arg6 harg6 hc0 hc1 x0 x1 xs0).2.1)

/-! ## Point by point -/

/-- An odd position is a last half and not a first half. -/
theorem odd_last (t : Fin cfg0.N) (h0 : ¬t.val % 2 = 0) : ¬cond0_0 (grid0.coords t) ∧ cond0_1 (grid0.coords t) :=
  ⟨fun h => h0 ((hcond0_0 t).mp h), (hcond0_1 t).mpr (by omega)⟩
/-- An even position is a first half and not a last half. -/
theorem even_first (t : Fin cfg0.N) (h0 : t.val % 2 = 0) : cond0_0 (grid0.coords t) ∧ ¬cond0_1 (grid0.coords t) :=
  ⟨(hcond0_0 t).mpr h0, fun h => by have := (hcond0_1 t).mp h; omega⟩

/-- The result block's buffer and the accumulator after the body at position `n`: the case the position's parity
    selects, run on the position's memrefs and input blocks, a last half over what the position before left in the
    accumulator. -/
def holdsAt (c : Dev nD) : (n : ℕ) → n < cfg0.N → Vec F S1024x1024 .f32 × Vec F S1024x1024 .f32
  | 0, hn => (outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (even_first ⟨0, hn⟩ (Nat.zero_mod _)).1 (even_first ⟨0, hn⟩ (Nat.zero_mod _)).2 (iblk m c 0 ⟨0, hn⟩) (iblk m c 1 ⟨0, hn⟩),
      accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (even_first ⟨0, hn⟩ (Nat.zero_mod _)).1 (even_first ⟨0, hn⟩ (Nat.zero_mod _)).2 (iblk m c 0 ⟨0, hn⟩) (iblk m c 1 ⟨0, hn⟩))
  | n + 1, hn =>
    if h0 : (n + 1) % 2 = 0 then
      (outFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (even_first ⟨n + 1, hn⟩ h0).1 (even_first ⟨n + 1, hn⟩ h0).2 (iblk m c 0 ⟨n + 1, hn⟩) (iblk m c 1 ⟨n + 1, hn⟩),
        accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (even_first ⟨n + 1, hn⟩ h0).1 (even_first ⟨n + 1, hn⟩ h0).2 (iblk m c 0 ⟨n + 1, hn⟩) (iblk m c 1 ⟨n + 1, hn⟩))
    else
      (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (odd_last ⟨n + 1, hn⟩ h0).1 (odd_last ⟨n + 1, hn⟩ h0).2 (iblk m c 0 ⟨n + 1, hn⟩) (iblk m c 1 ⟨n + 1, hn⟩) (holdsAt c n (Nat.lt_of_succ_lt hn)).2,
        accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (odd_last ⟨n + 1, hn⟩ h0).1 (odd_last ⟨n + 1, hn⟩ h0).2 (iblk m c 0 ⟨n + 1, hn⟩) (iblk m c 1 ⟨n + 1, hn⟩) (holdsAt c n (Nat.lt_of_succ_lt hn)).2)

/-- At an even position: the first half's contents. -/
theorem holdsAt_even (c : Dev nD) (t : Fin cfg0.N) (h0 : t.val % 2 = 0) :
    holdsAt m c t.val t.isLt = (outFirst c (grid0.coords t) (ms0_0 t) (hs0_0 t) (ms0_1 t) (hs0_1 t) (ms0_2 t) (hs0_2 t) scM0_0 (Memref.isWhole_whole _) (even_first t h0).1 (even_first t h0).2 (iblk m c 0 t) (iblk m c 1 t),
      accFirst c (grid0.coords t) (ms0_0 t) (hs0_0 t) (ms0_1 t) (hs0_1 t) (ms0_2 t) (hs0_2 t) scM0_0 (Memref.isWhole_whole _) (even_first t h0).1 (even_first t h0).2 (iblk m c 0 t) (iblk m c 1 t)) := by
  obtain ⟨n, hn⟩ := t
  cases n with
  | zero => exact rfl
  | succ n => exact (dif_pos h0).trans rfl

/-- At an odd position: the last half's contents, over what the position before left. -/
theorem holdsAt_odd (c : Dev nD) (t : Fin cfg0.N) (h0 : ¬t.val % 2 = 0) :
    holdsAt m c t.val t.isLt = (outLast c (grid0.coords t) (ms0_0 t) (hs0_0 t) (ms0_1 t) (hs0_1 t) (ms0_2 t) (hs0_2 t) scM0_0 (Memref.isWhole_whole _) (odd_last t h0).1 (odd_last t h0).2 (iblk m c 0 t) (iblk m c 1 t) (holdsAt m c (t.val - 1) (Nat.lt_of_le_of_lt (Nat.sub_le _ _) t.isLt)).2,
      accLast c (grid0.coords t) (ms0_0 t) (hs0_0 t) (ms0_1 t) (hs0_1 t) (ms0_2 t) (hs0_2 t) scM0_0 (Memref.isWhole_whole _) (odd_last t h0).1 (odd_last t h0).2 (iblk m c 0 t) (iblk m c 1 t) (holdsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point the accumulator at anything; afterwards the accumulator at
    what the position before left; always the generator register at some state. -/
def Carried (c : Dev nD) : (n : ℕ) → n ≤ cfg0.N → sProp 𝕄
  | 0, _ => Pipeline.ΦA spec0 c
  | n + 1, hn => iprop(iprop(owns (c : Thread nD τ) scM0_0 fullShare ((holdsAt m c n hn).2)) ∗ (∃ r, prngReg c r))

theorem Carried_zero (c : Dev nD) (n : ℕ) (h : n ≤ cfg0.N) (hz : n = 0) : Carried m c n h = Pipeline.ΦA spec0 c := by
  subst hz; rfl

theorem Carried_succ (c : Dev nD) (n : ℕ) (hn : n < cfg0.N) :
    Carried m c (n + 1) hn = iprop(iprop(owns (c : Thread nD τ) scM0_0 fullShare ((holdsAt m c n hn).2)) ∗ (∃ r, prngReg c r)) := rfl

theorem Carried_pos (c : Dev nD) (n : ℕ) (h : n ≤ cfg0.N) (hz : n ≠ 0) :
    Carried m c n h = iprop(iprop(owns (c : Thread nD τ) scM0_0 fullShare ((holdsAt m c (n - 1) (by omega)).2)) ∗ (∃ r, prngReg c r)) := by
  cases n with
  | zero => exact absurd rfl hz
  | succ n => rfl

/-! ## The proof data -/

/-- The call's proof data on one core: the arrays as the call finds them; after the body each input's buffer at its
    block and the result's at `holdsAt`; the invariant `Carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (holdsAt m c t.val t.isLt).1
  Φ t := Carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Carried_castSucc (c : Dev nD) (t : Fin cfg0.N) :
    (dats m 0 c).Φ t.castSucc = Carried m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (holdsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point.  The inputs' buffers hold their blocks; the position's parity says which case runs; the
    invariant hands the body the accumulator (at what the position before left, or at anything before the first point)
    and takes it back at this position's contents, the case's stores covering it; on a first half the result buffer is
    handed back untouched, on a last half its store covers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = Carried m c (t.val + 1) t.isLt from rfl, Carried_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · rw [Dat.leavesExact_idle (dats m 0 c) 2 t (idleAt0_2_first t (even_first t h0).1 (even_first t h0).2) (noFlush0_2_first t (even_first t h0).1 (even_first t h0).2)]
    rw [holdsAt_even m c t h0]
    unfold accFirst; (try dsimp only)
    by_cases hz : t.val = 0
    · rw [Carried_castSucc m c t, Carried_zero m c _ _ hz, PhiA0_eq]
      iintro ⟨⟨HS0, Hg⟩, Ho, ⟨%d0, H0⟩, ⟨%d1, H1⟩, ⟨%d2, H2⟩⟩
      iapply ((runFirst c (grid0.coords t) _ _ _ _ _ _ _ _ (even_first t h0).1 (even_first t h0).2 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (accCoverFirst c _ _ _ _ _ _ _ _ _ _ _ _ _)
        iexact Hg
      isplitl [Ho]; · iexact Ho
      isplitl [H0]; · iexact H0
      isplitl [H1]; · iexact H1
      iexists _; iexact H2
    · rw [Carried_castSucc m c t, Carried_pos m c _ _ hz]
      iintro ⟨⟨HS0, Hg⟩, Ho, ⟨%d0, H0⟩, ⟨%d1, H1⟩, ⟨%d2, H2⟩⟩
      iapply ((runFirst c (grid0.coords t) _ _ _ _ _ _ _ _ (even_first t h0).1 (even_first t h0).2 (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (accCoverFirst c _ _ _ _ _ _ _ _ _ _ _ _ _)
        iexact Hg
      isplitl [Ho]; · iexact Ho
      isplitl [H0]; · iexact H0
      isplitl [H1]; · iexact H1
      iexists _; iexact H2
  · rw [show (dats m 0 c).leavesExact 2 t = owns (c : Thread nD τ) (ms0_2 t) fullShare ((dats m 0 c).after 2 t) from by
      unfold Dat.leavesExact; rw [liveAt0_2_last t (odd_last t h0).1 (odd_last t h0).2], after0_2]
    rw [holdsAt_odd m c t h0]
    unfold outLast accLast; (try dsimp only)
    have hz : t.val ≠ 0 := fun h => h0 (by rw [h])
    rw [Carried_castSucc m c t, Carried_pos m c _ _ hz]
    iintro ⟨⟨HS0, Hg⟩, Ho, ⟨%d0, H0⟩, ⟨%d1, H1⟩, ⟨%d2, H2⟩⟩
    iapply ((runLast c (grid0.coords t) _ _ _ _ _ _ _ _ (odd_last t h0).1 (odd_last t h0).2 (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (accCoverLast c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (outCoverLast c _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = Carried m c 0 (Nat.zero_le _) from rfl, Carried_zero m c 0 _ rfl]
  try exact Idealize.SL.BI.Entails.refl _

/-- After any point the invariant gives that back, the accumulator's contents forgotten. -/
theorem Carried_out (c : Dev nD) (t : Fin (cfg0.N + 1)) (ht : t.val ≠ 0) : (dats m 0 c).Φ t ⊢ Pipeline.ΦA spec0 c := by
  rw [show (dats m 0 c).Φ t = Carried m c t.val (Nat.le_of_lt_succ t.isLt) from rfl, Carried_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Carried_out m c _ (by rw [Fin.val_last]; have : cfg0.N = 192 := N_0; omega)

/-! ## The run and the frame -/

set_option backward.isDefEq.respectTransparency.types false in
/-- Every weakly fair execution of @main terminates, nothing faulting, every array of the call ending at what the
    proof data says and every other buffer as the lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its ten arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.KernelIdeal.Frame

end
-- ==== Proof.Spec.lean ====
/-
  The mathematics of the three projections, on the extended reals.

  A token row `x = X(b, s, ·)` of 4096 features is projected by a base weight `W` (4096 × 4096, one row per output
  feature) corrected by a rank-16 term: a down-projection `A` (16 × 4096), an up-projection `B` (4096 × 16) and the
  scale `two`.  Two arrangements of the same number:

  * folded — correct the weight first, then contract once: `∑ h, x h · (W(n, h) + two · ∑ r, B(n, r) · A(r, h))`;
  * split  — contract with the base weight, and separately through the rank-16 bottleneck:
    `∑ h, x h · W(n, h) + two · ∑ r, (∑ h, x h · A(r, h)) · B(n, r)`.

  Going from one to the other distributes `x h` over a sum, exchanges the two finite sums and moves the factor
  `two` across a sum.  On the extended reals these steps fail at the infinities, so the equality is stated for
  arrays all of whose entries are real numbers.
-/
import Idealize.ShloMosaic.PureOps.Ideal
import Idealize.ShloMosaic.Lib.ValueIdx

noncomputable section

open scoped BigOperators

namespace Cert.Lora

open Idealize.ShloMosaic Idealize.ShloMosaic.ValueIdx

/-- Activations and results: batch × sequence × features. -/
abbrev Tok : Type := (⟨3, ![4, 2048, 4096]⟩ : Shape).Idx → EReal
/-- A base weight: output features × input features. -/
abbrev Wt : Type := (⟨2, ![4096, 4096]⟩ : Shape).Idx → EReal
/-- A down-projection: rank × input features. -/
abbrev Dn : Type := (⟨2, ![16, 4096]⟩ : Shape).Idx → EReal
/-- An up-projection: output features × rank. -/
abbrev Up : Type := (⟨2, ![4096, 16]⟩ : Shape).Idx → EReal

/-- The scale of the low-rank correction, as the programs spell it. -/
def two : EReal := Ideal.ofBits .f32 0x40000000#32

/-- The corrected weight `W + two · (B · A)`. -/
def weff (W : Wt) (A : Dn) (B : Up) : Wt := fun j =>
  W j + two * ∑ r : Fin 16, B (ix2 (j 0) r) * A (ix2 r (j 1))

/-- Folded arrangement: each token row against the corrected weight's row. -/
def projFold (X : Tok) (W : Wt) (A : Dn) (B : Up) : Tok := fun i =>
  ∑ h : Fin 4096, X (ix3 (i 0) (i 1) h) * weff W A B (ix2 (i 2) h)

/-- Split arrangement: the base product plus the scaled product through the rank-16 bottleneck. -/
def projSplit (X : Tok) (W : Wt) (A : Dn) (B : Up) : Tok := fun i =>
  (∑ h : Fin 4096, X (ix3 (i 0) (i 1) h) * W (ix2 (i 2) h))
    + two * ∑ r : Fin 16, (∑ h : Fin 4096, X (ix3 (i 0) (i 1) h) * A (ix2 r h)) * B (ix2 (i 2) r)

end Cert.Lora

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.HostSide.lean ====
/-
  The host's share of the blocked product, read entry by entry.

  Before the blocked product runs, the host lays the operands out: the activations `X (b, s, ·)`, four groups of
  2048 token rows, are viewed as 8192 rows (row `b · 2048 + s`), and the three corrected weights
  `W + two · (B A)` — one per stream — are stacked one under the other into 12288 rows (stream `k` occupies
  rows `k · 4096 … k · 4096 + 4095`).  Changing the number format is the identity on the extended reals, so the
  laid-out operands hold exactly these numbers.  After the product the host cuts the 8192 × 12288 result into
  its three bands of 4096 columns and views each band's 8192 rows again as four groups of 2048.
-/
import proofs.«109549_j17368847745269_2_alg».proof.Proof.Gen.KernelIdeal.Launch
import proofs.«109549_j17368847745269_2_alg».proof.Proof.Spec
import proofs.«109549_j17368847745269_2_alg».proof.Proof.LibDense
import proofs.«109549_j17368847745269_2_alg».proof.Proof.LibRowBlocks
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lora.Host

open Idealize.ShloMosaic Idealize.ShloMosaic.ValueIdx Idealize.ShloMosaic.TcCoe Idealize.SL.Sem
open Cert.KernelIdeal Cert.KernelIdeal.Gen

/-- A device memory: contents for every buffer of every device. -/
abbrev Mem : Type := (ℓ : Loc nD τ sig) → Buf (Elt Ideal) ℓ

/-- What device `c`'s buffers hold once the host operations before the blocked product have run. -/
abbrev Vp (m : Mem) (c : Dev nD) : Valuation τ sig (Elt Ideal) :=
  StableHlo.after (hostOps0 (F := Ideal)) (fun b => m (c, b))

/-! ## The activations as 8192 rows -/

/-- The left operand is the activations viewed as 8192 rows, the format change applied. -/
theorem xflat_eq (m : Mem) (c : Dev nD) :
    Vp m c (Proc.devRef .tc main_v1)
      = truncf (F := Ideal) .bf16
          (shapeCast S8192x4096 (m ((c : Thread nD τ).loc main_arg0) : FVec Ideal S4x2048x4096 .f32)
            shapeCasts_S4x2048x4096_S8192x4096 : FVec Ideal S8192x4096 .f32) bitsLt_bf16_f32 := by
  show StableHlo.after (hostOps0 (F := Ideal)) (fun b => m (c, b)) (Proc.devRef .tc main_v1) = _
  after_results
  rfl

/-- Row `b · 2048 + s` of the left operand is token `s` of group `b`. -/
theorem xflat_apply (m : Mem) (c : Dev nD) (b : Fin 4) (s : Fin 2048) (h : Fin 4096) (r : Fin 8192)
    (hr : r.val = b.val * 2048 + s.val) :
    Vp m c (Proc.devRef .tc main_v1) (ix2 r h) = m ((c : Thread nD τ).loc main_arg0) (ix3 b s h) := by
  refine (congrFun (xflat_eq m c) (ix2 r h)).trans ?_
  refine (truncf_apply (ψ := .bf16) (φ := .f32) _ bitsLt_bf16_f32 _).trans ?_
  exact Cert.RowBlocks.shapeCast_merge_apply _ _ b s h r hr

/-! ## The stacked corrected weights -/

/-- One stream's corrected weight as the host computes it: the product of the up- and down-projections, scaled,
    added to the base weight, the format change applied. -/
def wHost (W : FVec Ideal S4096x4096 .f32) (A : FVec Ideal S16x4096 .f32) (B : FVec Ideal S4096x16 .f32) :
    FVec Ideal S4096x4096 .bf16 :=
  truncf (F := Ideal) .bf16
    (addf W (mulf (broadcastInDim S4096x4096 ![] bcast_S_S4096x4096 (constant (F := Ideal) S_ .f32 0x40000000#32))
      (Host.dotGeneral (F := Ideal) dot_S4096x16_S16x4096_S4096x4096_1_0_0_1_n_n none B A))) bitsLt_bf16_f32

/-- Entry `(n, h)` of it is `W (n, h) + two · ∑ r, B (n, r) · A (r, h)`. -/
theorem wHost_apply (W : FVec Ideal S4096x4096 .f32) (A : FVec Ideal S16x4096 .f32) (B : FVec Ideal S4096x16 .f32)
    (n h : Fin 4096) : wHost W A B (ix2 n h) = Cert.Lora.weff W A B (ix2 n h) := by
  unfold wHost
  refine (truncf_apply (ψ := .bf16) (φ := .f32) _ bitsLt_bf16_f32 _).trans ?_
  refine (addf_apply _ _ _).trans ?_
  refine congrArg (W (ix2 n h) + ·) ?_
  refine (mulf_apply _ _ _).trans ?_
  rw [Cert.Dense.hostDot_eq_mm dot_S4096x16_S16x4096_S4096x4096_1_0_0_1_n_n rfl rfl rfl rfl rfl rfl none B A,
    Cert.Dense.mm_apply,
    broadcastInDim_apply ![] bcast_S_S4096x4096 _ (ix2 n h) ix0 (fun a => a.elim0)]
  rfl

/-- The three streams' corrected weights, in the order they are stacked. -/
abbrev wPieces (m : Mem) (c : Dev nD) : List ((s : Shape) × (s.Idx → EReal)) :=
  [⟨S4096x4096, wHost (m ((c : Thread nD τ).loc main_arg1)) (m ((c : Thread nD τ).loc main_arg2)) (m ((c : Thread nD τ).loc main_arg3))⟩,
   ⟨S4096x4096, wHost (m ((c : Thread nD τ).loc main_arg4)) (m ((c : Thread nD τ).loc main_arg5)) (m ((c : Thread nD τ).loc main_arg6))⟩,
   ⟨S4096x4096, wHost (m ((c : Thread nD τ).loc main_arg7)) (m ((c : Thread nD τ).loc main_arg8)) (m ((c : Thread nD τ).loc main_arg9))⟩]

/-- The right operand is the three streams' corrected weights stacked along the rows. -/
theorem wstack_eq (m : Mem) (c : Dev nD) :
    Vp m c (Proc.devRef .tc main_v17)
      = concatenate S12288x4096 0 (wPieces m c) concatenates_S4096x4096_S4096x4096_S4096x4096_S12288x4096_d0 := by
  show StableHlo.after (hostOps0 (F := Ideal)) (fun b => m (c, b)) (Proc.devRef .tc main_v17) = _
  after_results
  rfl

/-- Row `k · 4096 + n` of the right operand is row `n` of stream `k`'s corrected weight: stream 0, … -/
theorem wstack_apply0 (m : Mem) (c : Dev nD) (n h : Fin 4096) (r : Fin 12288) (hr : r.val = n.val) :
    Vp m c (Proc.devRef .tc main_v17) (ix2 r h)
      = Cert.Lora.weff (m ((c : Thread nD τ).loc main_arg1)) (m ((c : Thread nD τ).loc main_arg2))
          (m ((c : Thread nD τ).loc main_arg3)) (ix2 n h) := by
  refine (congrFun (wstack_eq m c) (ix2 r h)).trans ?_
  refine (concatenate_apply_piece (0 : Fin S12288x4096.rank) (wPieces m c)
    concatenates_S4096x4096_S4096x4096_S4096x4096_S12288x4096_d0 (ix2 r h) 0 (show (0 : ℕ) < 3 by omega) S4096x4096 _ rfl rfl
    0 rfl (ix2 n h) (fun b hb => ?_) ?_).trans (wHost_apply _ _ _ n h)
  · match b with
    | ⟨0, _⟩ => exact absurd rfl hb
    | ⟨1, _⟩ => rfl
  · show 0 + n.val = r.val
    omega

/-- … stream 1, … -/
theorem wstack_apply1 (m : Mem) (c : Dev nD) (n h : Fin 4096) (r : Fin 12288) (hr : r.val = 4096 + n.val) :
    Vp m c (Proc.devRef .tc main_v17) (ix2 r h)
      = Cert.Lora.weff (m ((c : Thread nD τ).loc main_arg4)) (m ((c : Thread nD τ).loc main_arg5))
          (m ((c : Thread nD τ).loc main_arg6)) (ix2 n h) := by
  refine (congrFun (wstack_eq m c) (ix2 r h)).trans ?_
  refine (concatenate_apply_piece (0 : Fin S12288x4096.rank) (wPieces m c)
    concatenates_S4096x4096_S4096x4096_S4096x4096_S12288x4096_d0 (ix2 r h) 1 (show (1 : ℕ) < 3 by omega) S4096x4096 _ rfl rfl
    4096 rfl (ix2 n h) (fun b hb => ?_) ?_).trans (wHost_apply _ _ _ n h)
  · match b with
    | ⟨0, _⟩ => exact absurd rfl hb
    | ⟨1, _⟩ => rfl
  · show 4096 + n.val = r.val
    omega

/-- … and stream 2. -/
theorem wstack_apply2 (m : Mem) (c : Dev nD) (n h : Fin 4096) (r : Fin 12288) (hr : r.val = 8192 + n.val) :
    Vp m c (Proc.devRef .tc main_v17) (ix2 r h)
      = Cert.Lora.weff (m ((c : Thread nD τ).loc main_arg7)) (m ((c : Thread nD τ).loc main_arg8))
          (m ((c : Thread nD τ).loc main_arg9)) (ix2 n h) := by
  refine (congrFun (wstack_eq m c) (ix2 r h)).trans ?_
  refine (concatenate_apply_piece (0 : Fin S12288x4096.rank) (wPieces m c)
    concatenates_S4096x4096_S4096x4096_S4096x4096_S12288x4096_d0 (ix2 r h) 2 (show (2 : ℕ) < 3 by omega) S4096x4096 _ rfl rfl
    8192 rfl (ix2 n h) (fun b hb => ?_) ?_).trans (wHost_apply _ _ _ n h)
  · match b with
    | ⟨0, _⟩ => exact absurd rfl hb
    | ⟨1, _⟩ => rfl
  · show 8192 + n.val = r.val
    omega

/-! ## The result's three bands -/

/-- The band of 4096 columns starting at column `off`, its 8192 rows viewed as four groups of 2048: entry
    `(b, s, n)` is the result at row `b · 2048 + s`, column `off + n`. -/
theorem band_apply (off : ℕ) (hs : S8192x12288.Slices ![0, off] S8192x4096)
    (out : (⟨S8192x12288, .f32⟩ : BufTy).Contents (Elt Ideal)) (b : Fin 4) (s : Fin 2048) (n : Fin 4096)
    (r : Fin 8192) (cidx : Fin 12288) (hr : r.val = b.val * 2048 + s.val) (hc : cidx.val = off + n.val) :
    shapeCast S4x2048x4096 (extractStridedSlice S8192x4096 ![0, off] out hs) shapeCasts_S8192x4096_S4x2048x4096
      (ix3 b s n) = out (ix2 r cidx) := by
  refine (Cert.RowBlocks.shapeCast_split_apply _ _ b s n r hr).trans ?_
  refine extractStridedSlice_apply _ out hs (ix2 r n) (ix2 r cidx) fun a => ?_
  match a with
  | ⟨0, _⟩ =>
    show r.val = 0 + r.val
    omega
  | ⟨1, _⟩ => exact hc

theorem tail_apply0 (out : (⟨S8192x12288, .f32⟩ : BufTy).Contents (Elt Ideal)) (b : Fin 4) (s : Fin 2048) (n : Fin 4096)
    (r : Fin 8192) (cidx : Fin 12288) (hr : r.val = b.val * 2048 + s.val) (hc : cidx.val = 0 + n.val) :
    shapeCast S4x2048x4096 (extractStridedSlice S8192x4096 ![0, 0] out slices_S8192x12288_S8192x4096_0_0)
      shapeCasts_S8192x4096_S4x2048x4096 (ix3 b s n) = out (ix2 r cidx) :=
  band_apply 0 _ out b s n r cidx hr hc

theorem tail_apply1 (out : (⟨S8192x12288, .f32⟩ : BufTy).Contents (Elt Ideal)) (b : Fin 4) (s : Fin 2048) (n : Fin 4096)
    (r : Fin 8192) (cidx : Fin 12288) (hr : r.val = b.val * 2048 + s.val) (hc : cidx.val = 4096 + n.val) :
    shapeCast S4x2048x4096 (extractStridedSlice S8192x4096 ![0, 4096] out slices_S8192x12288_S8192x4096_0_4096)
      shapeCasts_S8192x4096_S4x2048x4096 (ix3 b s n) = out (ix2 r cidx) :=
  band_apply 4096 _ out b s n r cidx hr hc

theorem tail_apply2 (out : (⟨S8192x12288, .f32⟩ : BufTy).Contents (Elt Ideal)) (b : Fin 4) (s : Fin 2048) (n : Fin 4096)
    (r : Fin 8192) (cidx : Fin 12288) (hr : r.val = b.val * 2048 + s.val) (hc : cidx.val = 8192 + n.val) :
    shapeCast S4x2048x4096 (extractStridedSlice S8192x4096 ![0, 8192] out slices_S8192x12288_S8192x4096_0_8192)
      shapeCasts_S8192x4096_S4x2048x4096 (ix3 b s n) = out (ix2 r cidx) :=
  band_apply 8192 _ out b s n r cidx hr hc

/-- What the host operations after the blocked product leave in the three result buffers, from a valuation `W`
    whose product buffer holds the 8192 × 12288 result: stream 0, … -/
theorem tail_q (W : Valuation τ sig (Elt Ideal)) :
    StableHlo.after (hostOps1 (F := Ideal)) W (Proc.devRef .tc main_v20)
      = shapeCast S4x2048x4096
          (extractStridedSlice S8192x4096 ![0, 0] (W (Proc.devRef .tc main_v18) : FVec Ideal S8192x12288 .f32)
            slices_S8192x12288_S8192x4096_0_0) shapeCasts_S8192x4096_S4x2048x4096 := by
  after_results
  rfl

/-- … stream 1, … -/
theorem tail_k (W : Valuation τ sig (Elt Ideal)) :
    StableHlo.after (hostOps1 (F := Ideal)) W (Proc.devRef .tc main_v22)
      = shapeCast S4x2048x4096
          (extractStridedSlice S8192x4096 ![0, 4096] (W (Proc.devRef .tc main_v18) : FVec Ideal S8192x12288 .f32)
            slices_S8192x12288_S8192x4096_0_4096) shapeCasts_S8192x4096_S4x2048x4096 := by
  after_results
  rfl

/-- … and stream 2. -/
theorem tail_v (W : Valuation τ sig (Elt Ideal)) :
    StableHlo.after (hostOps1 (F := Ideal)) W (Proc.devRef .tc main_v24)
      = shapeCast S4x2048x4096
          (extractStridedSlice S8192x4096 ![0, 8192] (W (Proc.devRef .tc main_v18) : FVec Ideal S8192x12288 .f32)
            slices_S8192x12288_S8192x4096_0_8192) shapeCasts_S8192x4096_S4x2048x4096 := by
  after_results
  rfl

end Cert.Lora.Host

end
-- ==== Proof.LibCarriedRow.lean ====
/-
  A row of running totals carried in a buffer, read back: general lemmas.

  Stores that each cover their whole buffer: a load of the whole buffer after such stores reads the value of the
  LAST one, whatever came before (`readCov_cons_unit_zero`; the library has the one-store case).

  A `[1, 1, c]` row kept in a buffer and used as a vector `[c]` or as a `[1, c]` row: the three shape casts read at
  an index (`cast_11c_c`, `cast_c_11c`, `cast_11c_1c`).

  On the extended reals, the sum of an `[n, c]` array along its FIRST axis reads, at column `d`, the sum over the
  `n` rows of the column's entries (`colSum_apply`): the column totals of a block of rows.

  All at any extents.
-/
import Idealize.ShloMosaic.Lib.Pipeline.Value
import Idealize.ShloMosaic.Lib.ValueIdx
import Idealize.ShloMosaic.PureOps.Ideal.Laws

noncomputable section

open scoped BigOperators

namespace Cert.CarriedRow

open Idealize.ShloMosaic Idealize.ShloMosaic.ValueIdx

section stores
variable {Val : EltTy → Type} {S : Shape} {e : EltTy}

/-- A load of the whole buffer, after stores of which the LAST covers the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]
end stores

section layout
variable {α : Type}

/-- A `[1, 1, c]` row read as a vector. -/
theorem cast_11c_c {c : ℕ} (x : (⟨3, ![1, 1, c]⟩ : Shape).Idx → α) (h : (⟨3, ![1, 1, c]⟩ : Shape).ShapeCasts ⟨1, ![c]⟩)
    (d : Fin c) : shapeCast ⟨1, ![c]⟩ x h (ix1 d) = x (ix3 (0 : Fin 1) (0 : Fin 1) d) :=
  shapeCast_apply x h _ _ (by
    rw [Shape.rowMajor_val_three, Shape.rowMajor_val_one]
    show (0 * 1 + 0) * c + d.val = d.val
    simp)

/-- A vector read as a `[1, 1, c]` row. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, c]` row read as a `[1, c]` row. -/
theorem cast_11c_1c {c : ℕ} (x : (⟨3, ![1, 1, c]⟩ : Shape).Idx → α) (h : (⟨3, ![1, 1, c]⟩ : Shape).ShapeCasts ⟨2, ![1, c]⟩)
    (u : Fin 1) (d : Fin c) : shapeCast ⟨2, ![1, c]⟩ x h (ix2 u d) = x (ix3 (0 : Fin 1) (0 : Fin 1) d) :=
  shapeCast_apply x h _ _ (by
    have hu : u.val = 0 := by omega
    rw [Shape.rowMajor_val_three, Shape.rowMajor_val_two]
    show (0 * 1 + 0) * c + d.val = u.val * c + d.val
    simp [hu])
end layout

/-- The sum of an `[n, c]` array along its first axis reads, at column `d`, the sum of the column's entries. -/
theorem colSum_apply {n c : ℕ} (src : FVec Ideal ⟨2, ![n, c]⟩ .f32)
    (h : (⟨2, ![n, c]⟩ : Shape).Reduces [0] ⟨1, ![c]⟩) (hφ : FKind.Formats .f32)
    (hacc : (0x00000000#32 : BitVec 32) = 0x00000000#32) (d : Fin c) :
    multiReduction .add [0] ⟨1, ![c]⟩ src 0x00000000#32 h hφ hacc (ix1 d) = ∑ p : Fin n, src (ix2 p d) := by
  refine (Ideal.multiReduction_add_single src 0x00000000#32 h hφ hacc (ix1 d)).trans ?_
  refine Finset.sum_congr rfl fun k _ => congrArg src (funext fun ax => Fin.ext ?_)
  match ax with
  | ⟨0, _⟩ => rfl
  | ⟨1, _⟩ => rfl

end Cert.CarriedRow

end
-- ==== Proof.FrameI.Pieces.lean ====
/-
  What the two cases leave, as arithmetic.

  Every load and store of the body goes through the whole buffer, so a store's value is what the buffer then holds and
  a load reads what the latest store wrote.  On a first half the accumulator ends at the block product added to the
  cleared block; on a last half it ends at the block product added to what it held, and the result block is a copy of
  that.
-/
import proofs.«109549_j17368847745269_2_alg».proof.Proof.FrameI.Frame
import proofs.«109549_j17368847745269_2_alg».proof.Proof.LibCarriedRow

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The origin of a block, as the constant function. -/
theorem hz : (![0, 0] : Fin 2 → Nat) = fun _ => 0 := funext fun a => by fin_cases a <;> rfl

/-- A last half leaves in the accumulator: what it held plus the product of the two input blocks. -/
theorem accLast_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 x1 : Vec F S1024x2048 .bf16) (xs0 : Vec F S1024x1024 .f32) :
    accLast c i arg3 harg3 arg4 harg4 arg5 harg5 arg6 harg6 hc0 hc1 x0 x1 xs0 = k0_pay2 x0 x1 xs0 := by
  unfold accLast
  rw [View.read_writes_eq_canon _ _ _ (accCoverLast c i arg3 harg3 arg4 harg4 arg5 harg5 arg6 harg6 hc0 hc1 x0 x1 xs0)]
  unfold runLast
  dsimp only
  try sl_unfold_words
  rw [View.canon_unit_zero hz]
  simp only [View.readAt_eq_ld, harg3.read_unread, harg4.read_unread, harg6.read_unread, View.ld_unit_zero (S := S1024x2048) hz, View.ld_unit_zero (S := S1024x1024) hz]

/-- A last half copies exactly that into the result block. -/
theorem outLast_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 x1 : Vec F S1024x2048 .bf16) (xs0 : Vec F S1024x1024 .f32) :
    outLast c i arg3 harg3 arg4 harg4 arg5 harg5 arg6 harg6 hc0 hc1 x0 x1 xs0 = k0_pay2 x0 x1 xs0 := by
  unfold outLast
  rw [View.read_writes_eq_canon _ _ _ (outCoverLast c i arg3 harg3 arg4 harg4 arg5 harg5 arg6 harg6 hc0 hc1 x0 x1 xs0)]
  unfold runLast
  dsimp only
  try sl_unfold_words
  rw [View.canon_unit_zero hz, View.readCov_unit_zero (S := S1024x1024) _ hz]
  simp only [View.readAt_eq_ld, harg3.read_unread, harg4.read_unread, harg6.read_unread, View.ld_unit_zero (S := S1024x2048) hz, View.ld_unit_zero (S := S1024x1024) hz]

/-- A first half leaves in the accumulator: the cleared block plus the product of the two input blocks. -/
theorem accFirst_eq (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 x1 : Vec F S1024x2048 .bf16) :
    accFirst c i arg3 harg3 arg4 harg4 arg5 harg5 arg6 harg6 hc0 hc1 x0 x1 = k0_pay2 x0 x1 (k0_pay1 (F := F)) := by
  unfold accFirst
  rw [View.read_writes_eq_canon _ _ _ (accCoverFirst c i arg3 harg3 arg4 harg4 arg5 harg5 arg6 harg6 hc0 hc1 x0 x1)]
  unfold runFirst
  dsimp only
  try sl_unfold_words
  rw [View.canon_cons_unit_zero hz, View.readCov_unit_zero (S := S1024x1024) _ hz]
  simp only [View.readAt_eq_ld, harg3.read_unread, harg4.read_unread, harg6.read_unread, View.ld_unit_zero (S := S1024x2048) hz, View.ld_unit_zero (S := S1024x1024) hz]

end Cert.KernelIdeal.Frame

end
-- ==== Proof.BlockMath.lean ====
/-
  One step of the blocked product, read entry by entry.

  The blocked matrix product accumulates, for a block of 1024 token rows and a block of 1024 weight rows, the
  partial sums over a panel of 2048 input features.  Before the first panel the accumulator block is the zero
  block; each panel then adds, at entry `(q, d)`, the sum over the panel's features `p` of
  `x (q, p) · w (d, p)` — token row `q` against weight row `d`, both read along their second axis.  On the
  extended reals nothing is rounded, so this is all there is to one step.
-/
import proofs.«109549_j17368847745269_2_alg».proof.Proof.Gen.KernelIdeal.Skeleton
import proofs.«109549_j17368847745269_2_alg».proof.Proof.LibRowBlocks
import Idealize.ShloMosaic.PureOps.Ideal.Laws
import Idealize.ShloMosaic.Lib.ValueIdx
import Idealize.ShloMosaic.Lib.Pipeline.Value

noncomputable section

open scoped BigOperators

namespace Cert.Lora.Block

open Idealize.ShloMosaic Idealize.ShloMosaic.ValueIdx Idealize.SL.Sem
open Cert.KernelIdeal Cert.KernelIdeal.Gen

/-- The block the accumulator starts from is zero at every entry. -/
theorem pay1_apply (j : Cert.KernelIdeal.S1024x1024.Idx) : Cert.KernelIdeal.Gen.k0_pay1 (F := Ideal) j = 0 := by
  unfold Cert.KernelIdeal.Gen.k0_pay1
  rw [shapeCast_self]
  exact Ideal.ofBits_zero_f32

/-- One panel's step: the entry `(q, d)` of the accumulator grows by the sum, over the panel's 2048 features, of
    the token row's entry times the weight row's entry. -/
theorem pay2_apply (x w : Vec Ideal Cert.KernelIdeal.S1024x2048 .bf16) (acc : Vec Ideal Cert.KernelIdeal.S1024x1024 .f32)
    (q d : Fin 1024) :
    Cert.KernelIdeal.Gen.k0_pay2 (F := Ideal) x w acc (ix2 q d)
      = acc (ix2 q d) + ∑ p : Fin 2048, x (ix2 q p) * w (ix2 d p) := by
  unfold Cert.KernelIdeal.Gen.k0_pay2
  rw [shapeCast_self, shapeCast_self, shapeCast_self]
  refine (addf_apply _ _ _).trans ?_
  refine congrArg (acc (ix2 q d) + ·) ?_
  refine (Ideal.matmul_constant_zero_apply (φ₁ := .bf16) (φ₂ := .bf16)
    dot_S1024x2048_S1024x2048_S1024x1024_1_1_0_0_n_n none x w (ix2 q d)).trans ?_
  exact Cert.RowBlocks.abT_sum dot_S1024x2048_S1024x2048_S1024x1024_1_1_0_0_n_n rfl rfl rfl rfl rfl rfl x w q d

end Cert.Lora.Block

end
-- ==== Proof.Blocks.lean ====
/-
  From the blocks to the array: the result of the blocked product as one function of the two arrays it reads.

  The call multiplies the flattened activations `a` (8192 token rows × 4096 features) by the transpose of the stacked
  corrected weight `w` (12288 weight rows × 4096 features), block by block: for each of 8 blocks of 1024 token rows
  and each of 12 blocks of 1024 weight rows it sums two panels of 2048 features into an accumulator and, after the
  second panel, copies the accumulator into the result's block.  Here the per-block partial sums are put together:
  the two panels' sums make the sum over all 4096 features, every entry of the result lies in the block written back
  after the second panel of its token-row block and weight-row block, and so the result array ends holding
  `G a w (r, n) = ∑ h, a (r, h) · w (n, h)`.
-/
import proofs.«109549_j17368847745269_2_alg».proof.Proof.FrameI.Pieces
import proofs.«109549_j17368847745269_2_alg».proof.Proof.BlockMath
import Idealize.ShloMosaic.Lib.Pipeline.Value
import Idealize.ShloMosaic.Lib.ValueIdx

set_option maxRecDepth 16384

noncomputable section

open scoped BigOperators

namespace Cert.Lora.Blocks

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Frame Cert.Lora.Block

variable (m : (ℓ : Loc nD τ sig) → Buf (Elt Ideal) ℓ)

/-- The product of a row-major array of token rows with the transpose of a row-major array of weight rows: entry
    `(r, n)` is the sum over the 4096 shared features `h` of `a (r, h) · w (n, h)`. -/
def G (a : (⟨2, ![8192, 4096]⟩ : Shape).Idx → EReal) (w : (⟨2, ![12288, 4096]⟩ : Shape).Idx → EReal) :
    (⟨2, ![8192, 12288]⟩ : Shape).Idx → EReal :=
  fun j => ∑ h : Fin 4096, a (ix2 (j 0) h) * w (ix2 (j 1) h)

/-! ## Where each window's block sits -/

/-- The grid is walked row-major over 8 token-row blocks × 12 weight-row blocks × 2 feature panels, so position
    `t = 24·i + 2·j + k` has token-row block `i = t / 24`, weight-row block `j = t / 2 % 12` and panel `k = t % 2`.
    The activations' window moves with `(i, k)`, the stacked weight's with `(j, k)`, the result's with `(i, j)`. -/
theorem idx_facts : ∀ t : Fin cfg0.N,
    win0_0.index t (0 : Fin 2) = t.val / 24 ∧ win0_0.index t (1 : Fin 2) = t.val % 2
    ∧ win0_1.index t (0 : Fin 2) = t.val / 2 % 12 ∧ win0_1.index t (1 : Fin 2) = t.val % 2
    ∧ win0_2.index t (0 : Fin 2) = t.val / 24 ∧ win0_2.index t (1 : Fin 2) = t.val / 2 % 12 :=
  (by decide +kernel : ∀ t : Fin grid0.N, _)

/-- The activations' block at position `t`: 1024 token rows by one panel of 2048 features. -/
def actBlk (c : Dev nD) (t : Fin cfg0.N) : Vec Ideal S1024x2048 .bf16 := iblk m c 0 t
/-- The stacked weight's block at position `t`: 1024 weight rows by one panel of 2048 features. -/
def wtBlk (c : Dev nD) (t : Fin cfg0.N) : Vec Ideal S1024x2048 .bf16 := iblk m c 1 t

/-- Entry `x` of the activations' block at position `t` is the entry of the flattened activations at row
    `(t / 24)·1024 + x₀` and feature `(t % 2)·2048 + x₁`. -/
theorem actBlk_apply (c : Dev nD) (t : Fin cfg0.N) (x : S1024x2048.Idx) (k : S8192x4096.Idx)
    (hk0 : (k 0).val = t.val / 24 * 1024 + (x 0).val) (hk1 : (k 1).val = t.val % 2 * 2048 + (x 1).val) :
    actBlk m c t x = (V m c main_v1 : S8192x4096.Idx → EReal) k := by
  obtain ⟨e0, e1, -⟩ := idx_facts t
  unfold actBlk iblk
  rw [View.read_apply]
  show V m c main_v1 _ = V m c main_v1 _
  congr 1
  funext a
  apply Fin.ext
  match a with
  | ⟨0, _⟩ => show win0_0.index t 0 * 1024 + 1 * (x 0).val = (k 0).val; rw [e0, hk0]; omega
  | ⟨1, _⟩ => show win0_0.index t 1 * 2048 + 1 * (x 1).val = (k 1).val; rw [e1, hk1]; omega

/-- Entry `x` of the stacked weight's block at position `t` is the entry of the stacked weight at row
    `(t / 2 % 12)·1024 + x₀` and feature `(t % 2)·2048 + x₁`. -/
theorem wtBlk_apply (c : Dev nD) (t : Fin cfg0.N) (x : S1024x2048.Idx) (k : S12288x4096.Idx)
    (hk0 : (k 0).val = t.val / 2 % 12 * 1024 + (x 0).val) (hk1 : (k 1).val = t.val % 2 * 2048 + (x 1).val) :
    wtBlk m c t x = (V m c main_v17 : S12288x4096.Idx → EReal) k := by
  obtain ⟨-, -, e2, e3, -⟩ := idx_facts t
  unfold wtBlk iblk
  rw [View.read_apply]
  show V m c main_v17 _ = V m c main_v17 _
  congr 1
  funext a
  apply Fin.ext
  match a with
  | ⟨0, _⟩ => show win0_1.index t 0 * 1024 + 1 * (x 0).val = (k 0).val; rw [e2, hk0]; omega
  | ⟨1, _⟩ => show win0_1.index t 1 * 2048 + 1 * (x 1).val = (k 1).val; rw [e3, hk1]; omega

/-! ## The two panels -/

/-- After a first panel the accumulator holds, at `(q, d)`, that panel's partial sum: the zero block plus the products
    of the panel's 2048 features. -/
theorem acc_even_apply (c : Dev nD) (n : ℕ) (hn : n < cfg0.N) (h0 : n % 2 = 0) (q d : Fin 1024) :
    (holdsAt m c n hn).2 (ix2 q d)
      = ∑ p : Fin 2048, actBlk m c ⟨n, hn⟩ (ix2 q p) * wtBlk m c ⟨n, hn⟩ (ix2 d p) := by
  rw [show holdsAt m c n hn = _ from holdsAt_even m c ⟨n, hn⟩ h0]
  dsimp only
  rw [accFirst_eq]
  refine (pay2_apply _ _ _ q d).trans ?_
  rw [pay1_apply, zero_add]
  rfl

/-- After a second panel the result block's buffer holds, at `(q, d)`, the first panel's partial sum plus the second's. -/
theorem out_odd_apply (c : Dev nD) (t : Fin cfg0.N) (h1 : t.val % 2 = 1) (q d : Fin 1024) :
    (holdsAt m c t.val t.isLt).1 (ix2 q d)
      = (∑ p : Fin 2048, actBlk m c ⟨t.val - 1, Nat.lt_of_le_of_lt (Nat.sub_le _ _) t.isLt⟩ (ix2 q p)
            * wtBlk m c ⟨t.val - 1, Nat.lt_of_le_of_lt (Nat.sub_le _ _) t.isLt⟩ (ix2 d p))
        + ∑ p : Fin 2048, actBlk m c t (ix2 q p) * wtBlk m c t (ix2 d p) := by
  rw [holdsAt_odd m c t (by omega)]
  dsimp only
  rw [outLast_eq]
  refine (pay2_apply _ _ _ q d).trans ?_
  rw [acc_even_apply m c (t.val - 1) _ (by omega)]
  rfl

/-- A sum over the 4096 features is the sum over the first panel's plus the sum over the second's. -/
theorem sum_halves (f : Fin 4096 → EReal) :
    ∑ h : Fin 4096, f h = ∑ p : Fin 2048, f ⟨p.val, by omega⟩ + ∑ p : Fin 2048, f ⟨2048 + p.val, by omega⟩ := by
  show ∑ h : Fin (2048 + 2048), f h = _
  rw [Fin.sum_univ_add]
  rfl

/-- So after a second panel the result block's buffer holds the block of `G` of the two arrays: entry `(q, d)` of the
    block at position `t` is entry `((t / 24)·1024 + q, (t / 2 % 12)·1024 + d)` of the whole product. -/
theorem block_out (c : Dev nD) (t : Fin cfg0.N) (h1 : t.val % 2 = 1) (q d : Fin 1024) (i : S8192x12288.Idx)
    (hi0 : (i 0).val = t.val / 24 * 1024 + q.val) (hi1 : (i 1).val = t.val / 2 % 12 * 1024 + d.val) :
    (holdsAt m c t.val t.isLt).1 (ix2 q d) = G (V m c main_v1) (V m c main_v17) i := by
  rw [out_odd_apply m c t h1]
  unfold G
  rw [sum_halves]
  refine congrArg₂ (· + ·) (Finset.sum_congr rfl fun p _ => ?_) (Finset.sum_congr rfl fun p _ => ?_)
  · refine congrArg₂ (· * ·) ?_ ?_
    · refine actBlk_apply m c _ _ _ ?_ ?_
      · show (i 0).val = (t.val - 1) / 24 * 1024 + q.val; omega
      · show p.val = (t.val - 1) % 2 * 2048 + p.val; omega
    · refine wtBlk_apply m c _ _ _ ?_ ?_
      · show (i 1).val = (t.val - 1) / 2 % 12 * 1024 + d.val; omega
      · show p.val = (t.val - 1) % 2 * 2048 + p.val; omega
  · refine congrArg₂ (· * ·) ?_ ?_
    · refine actBlk_apply m c _ _ _ ?_ ?_
      · show (i 0).val = t.val / 24 * 1024 + q.val; omega
      · show 2048 + p.val = t.val % 2 * 2048 + p.val; omega
    · refine wtBlk_apply m c _ _ _ ?_ ?_
      · show (i 1).val = t.val / 2 % 12 * 1024 + d.val; omega
      · show 2048 + p.val = t.val % 2 * 2048 + p.val; omega

/-! ## From the blocks to the array -/

/-- What a second panel writes back is its block of `G` of the two arrays. -/
theorem flushed_eq (c : Dev nD) (t : Fin cfg0.N) (hf : (cfg0.win 2).flush t = true) :
    (dats m 0 c).flushed 2 t = ((cfg0.win 2).blk t).view.read (Elt Ideal) (G (V m c main_v1) (V m c main_v17)) := by
  have h1 : t.val % 2 = 1 := (flush0_2 t).mp hf
  obtain ⟨-, -, -, -, e4, e5⟩ := idx_facts t
  show (cfg0.win 2).cut (grid0.coords t) ((dats m 0 c).after 2 t) = _
  rw [after0_2]
  funext j
  rw [View.read_apply]
  have hj0 : (j 0).val < 1024 := (j 0).isLt
  have hj1 : (j 1).val < 1024 := (j 1).isLt
  have hx : (cfg0.win 2).xinj (grid0.coords t) j = (ix2 (⟨(j 0).val, hj0⟩ : Fin 1024) (⟨(j 1).val, hj1⟩ : Fin 1024) : S1024x1024.Idx) := by
    funext a
    match a with
    | ⟨0, _⟩ => rfl
    | ⟨1, _⟩ => rfl
  show (holdsAt m c t.val t.isLt).1 ((cfg0.win 2).xinj (grid0.coords t) j) = G (V m c main_v1) (V m c main_v17) (((cfg0.win 2).blk t).view.emb j)
  refine (congrArg (holdsAt m c t.val t.isLt).1 hx).trans ?_
  refine block_out m c t h1 _ _ _ ?_ ?_
  · show win0_2.index t 0 * 1024 + 1 * (j 0).val = t.val / 24 * 1024 + (j 0).val; rw [e4]; omega
  · show win0_2.index t 1 * 1024 + 1 * (j 1).val = t.val / 2 % 12 * 1024 + (j 1).val; rw [e5]; omega

/-- An entry of the result is in position `t`'s block iff each coordinate is in the block's range on its axis. -/
theorem mem_blk2 (t : Fin cfg0.N) (i : S8192x12288.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v18).slice (win0_2.rect t)).set ↔ _
  rw [View.set_slice_whole, Rect.mem_set_unit]
  exact Iff.rfl

/-- Entry `(r, n)` of the result lies in the block written back at the second panel of token-row block `r / 1024` and
    weight-row block `n / 1024`: position `(r / 1024)·24 + (n / 1024)·2 + 1`. -/
theorem cover2 (i : S8192x12288.Idx) : ∃ t : Fin cfg0.N, (cfg0.win 2).flush t = true ∧ i ∈ ((cfg0.win 2).blk t).view.set := by
  have h0 : (i 0).val < 8192 := (i 0).isLt
  have h1 : (i 1).val < 12288 := (i 1).isLt
  have hN : cfg0.N = 192 := N_0
  refine ⟨⟨(i 0).val / 1024 * 24 + (i 1).val / 1024 * 2 + 1, by rw [hN]; omega⟩, (flush0_2 _).mpr (by show ((i 0).val / 1024 * 24 + (i 1).val / 1024 * 2 + 1) % 2 = 1; omega), ?_⟩
  rw [mem_blk2]
  obtain ⟨-, -, -, -, e4, e5⟩ := idx_facts ⟨(i 0).val / 1024 * 24 + (i 1).val / 1024 * 2 + 1, by rw [hN]; omega⟩
  intro a
  match a with
  | ⟨0, _⟩ =>
    show win0_2.index _ (0 : Fin 2) * 1024 ≤ (i 0).val ∧ (i 0).val < win0_2.index _ (0 : Fin 2) * 1024 + 1024
    rw [e4]; show ((i 0).val / 1024 * 24 + (i 1).val / 1024 * 2 + 1) / 24 * 1024 ≤ (i 0).val ∧ (i 0).val < ((i 0).val / 1024 * 24 + (i 1).val / 1024 * 2 + 1) / 24 * 1024 + 1024
    omega
  | ⟨1, _⟩ =>
    show win0_2.index _ (1 : Fin 2) * 1024 ≤ (i 1).val ∧ (i 1).val < win0_2.index _ (1 : Fin 2) * 1024 + 1024
    rw [e5]; show ((i 0).val / 1024 * 24 + (i 1).val / 1024 * 2 + 1) / 2 % 12 * 1024 ≤ (i 1).val ∧ (i 1).val < ((i 0).val / 1024 * 24 + (i 1).val / 1024 * 2 + 1) / 2 % 12 * 1024 + 1024
    omega

/-- The result array after the call: the product of the flattened activations with the transpose of the stacked weight,
    both as the call finds them. -/
theorem final_out (c : Dev nD) : (dats m 0 c).arrAt 2 cfg0.N = G (V m c main_v1) (V m c main_v17) :=
  (dats m 0 c).arrAt_eq_of_cover 2 (G (V m c main_v1) (V m c main_v17)) (flushed_eq m c) cover2

end Cert.Lora.Blocks

end
-- ==== Proof.KernelValue.lean ====
/-
  The three projections as the blocked product leaves them.

  The blocked product fills an 8192 × 12288 array whose entry `(r, j)` is the sum, over the 4096 input features
  `h`, of row `r` of the flattened activations times row `j` of the stacked corrected weights.  Row
  `r = b · 2048 + s` of the activations is token `s` of group `b`, and row `j = k · 4096 + n` of the stack is
  row `n` of stream `k`'s corrected weight `W + two · (B A)`; so the band of columns `k · 4096 …`, its rows
  regrouped, is the folded arrangement of stream `k`'s projection: at `(b, s, n)` the sum over `h` of
  `X (b, s, h) · (W (n, h) + two · ∑ r, B (n, r) · A (r, h))`.
-/
import proofs.«109549_j17368847745269_2_alg».proof.Proof.FrameI.Frame
import proofs.«109549_j17368847745269_2_alg».proof.Proof.HostSide
import proofs.«109549_j17368847745269_2_alg».proof.Proof.Blocks

noncomputable section

open scoped BigOperators

namespace Cert.Lora.KernelValue

open Idealize.ShloMosaic Idealize.ShloMosaic.ValueIdx Idealize.ShloMosaic.TcCoe Idealize.SL.Sem
open Cert.KernelIdeal Cert.KernelIdeal.Gen

/-! ## One band of the product is one folded projection -/

/-- The product array at row `r`, column `j`. -/
theorem G_apply (a : (⟨2, ![8192, 4096]⟩ : Shape).Idx → EReal) (w : (⟨2, ![12288, 4096]⟩ : Shape).Idx → EReal)
    (r : Fin 8192) (j : Fin 12288) : Cert.Lora.Blocks.G a w (ix2 r j) = ∑ h : Fin 4096, a (ix2 r h) * w (ix2 j h) := rfl

/-- The folded projection at token `s` of group `b`, output feature `n`. -/
theorem projFold_apply (X : Cert.Lora.Tok) (W : Cert.Lora.Wt) (A : Cert.Lora.Dn) (B : Cert.Lora.Up)
    (b : Fin 4) (s : Fin 2048) (n : Fin 4096) :
    Cert.Lora.projFold X W A B (ix3 b s n) = ∑ h : Fin 4096, X (ix3 b s h) * Cert.Lora.weff W A B (ix2 n h) := rfl

/-- If the rows of `a` are the token rows of `X` and the rows `off … off + 4095` of `w` are the rows of the
    corrected weight of `W`, `A`, `B`, then the band of columns of the product starting at `off`, its rows
    regrouped, is the folded projection of `X` by `W`, `A`, `B`. -/
theorem band_fold (a : (⟨2, ![8192, 4096]⟩ : Shape).Idx → EReal) (w : (⟨2, ![12288, 4096]⟩ : Shape).Idx → EReal)
    (X : Cert.Lora.Tok) (W : Cert.Lora.Wt) (A : Cert.Lora.Dn) (B : Cert.Lora.Up)
    (off : ℕ) (hoff : off + 4096 ≤ 12288) (hs : S8192x12288.Slices ![0, off] S8192x4096)
    (ha : ∀ (b : Fin 4) (s : Fin 2048) (h : Fin 4096) (r : Fin 8192), r.val = b.val * 2048 + s.val →
      a (ix2 r h) = X (ix3 b s h))
    (hw : ∀ (n h : Fin 4096) (r : Fin 12288), r.val = off + n.val → w (ix2 r h) = Cert.Lora.weff W A B (ix2 n h)) :
    shapeCast S4x2048x4096 (extractStridedSlice S8192x4096 ![0, off] (Cert.Lora.Blocks.G a w) hs)
        shapeCasts_S8192x4096_S4x2048x4096
      = Cert.Lora.projFold X W A B := by
  funext i
  obtain ⟨b, s, n, rfl⟩ : ∃ (b : Fin 4) (s : Fin 2048) (n : Fin 4096), i = ix3 b s n := ⟨i 0, i 1, i 2, eq_ix3 i⟩
  have hb := b.isLt
  have hs' := s.isLt
  have hn := n.isLt
  have hr : b.val * 2048 + s.val < 8192 := by omega
  have hj : off + n.val < 12288 := by omega
  refine (Cert.Lora.Host.band_apply off hs (Cert.Lora.Blocks.G a w) b s n ⟨b.val * 2048 + s.val, hr⟩ ⟨off + n.val, hj⟩ rfl rfl).trans ?_
  refine (G_apply a w _ _).trans ?_
  refine Eq.trans ?_ (projFold_apply X W A B b s n).symm
  refine Finset.sum_congr rfl fun h _ => ?_
  rw [ha b s h ⟨b.val * 2048 + s.val, hr⟩ rfl, hw n h ⟨off + n.val, hj⟩ rfl]

/-! ## The buffers the call finds -/

/-- What the call finds in the device's buffers is what the host operations before it left. -/
theorem V0_eq_Vp (m : Cert.Lora.Host.Mem) (c : Dev nD) : Cert.KernelIdeal.Frame.V0 m c = Cert.Lora.Host.Vp m c := by
  show StableHlo.after (List.flatten [hostOps0 (F := Ideal)]) (fun b => m (c, b))
    = StableHlo.after (hostOps0 (F := Ideal)) (fun b => m (c, b))
  rw [List.flatten_cons, List.flatten_nil, List.append_nil]

/-- The left operand as the call finds it: the token rows. -/
theorem left_rows (m : Cert.Lora.Host.Mem) (c : Dev nD) (b : Fin 4) (s : Fin 2048) (h : Fin 4096) (r : Fin 8192)
    (hr : r.val = b.val * 2048 + s.val) :
    Cert.KernelIdeal.Frame.V m c main_v1 (ix2 r h) = m ((c.tc : Thread nD τ).loc main_arg0) (ix3 b s h) :=
  (congrFun (congrFun (V0_eq_Vp m c) (Proc.devRef .tc main_v1)) (ix2 r h)).trans (Cert.Lora.Host.xflat_apply m c b s h r hr)

/-- The right operand as the call finds it, read where the host operations left it. -/
theorem right_rows (m : Cert.Lora.Host.Mem) (c : Dev nD) (r : Fin 12288) (h : Fin 4096) :
    Cert.KernelIdeal.Frame.V m c main_v17 (ix2 r h) = Cert.Lora.Host.Vp m c (Proc.devRef .tc main_v17) (ix2 r h) :=
  congrFun (congrFun (V0_eq_Vp m c) (Proc.devRef .tc main_v17)) (ix2 r h)

/-! ## The three result buffers -/

/-- The product array as the lines after the call find it, one band cut out and regrouped. -/
theorem tail_value (m : Cert.Lora.Host.Mem) (c : Dev nD) (off : ℕ) (hoff : off + 4096 ≤ 12288)
    (hs : S8192x12288.Slices ![0, off] S8192x4096) (W : Cert.Lora.Wt) (A : Cert.Lora.Dn) (B : Cert.Lora.Up)
    (hw : ∀ (n h : Fin 4096) (r : Fin 12288), r.val = off + n.val →
      Cert.Lora.Host.Vp m c (Proc.devRef .tc main_v17) (ix2 r h) = Cert.Lora.weff W A B (ix2 n h)) :
    shapeCast S4x2048x4096
        (extractStridedSlice S8192x4096 ![0, off]
          (Pipeline.withArrays (cfgs 0).spec c (Cert.KernelIdeal.Frame.V0 m c)
            (fun w => (Cert.KernelIdeal.Frame.dats (F := Ideal) m 0 c).arrAt w (cfgs 0).N) (Proc.devRef .tc main_v18)
            : FVec Ideal S8192x12288 .f32) hs)
        shapeCasts_S8192x4096_S4x2048x4096
      = Cert.Lora.projFold (m ((c.tc : Thread nD τ).loc main_arg0)) W A B := by
  have e : (Pipeline.withArrays (cfgs 0).spec c (Cert.KernelIdeal.Frame.V0 m c)
        (fun w => (Cert.KernelIdeal.Frame.dats (F := Ideal) m 0 c).arrAt w (cfgs 0).N) (Proc.devRef .tc main_v18)
        : FVec Ideal S8192x12288 .f32)
      = Cert.Lora.Blocks.G (Cert.KernelIdeal.Frame.V m c main_v1) (Cert.KernelIdeal.Frame.V m c main_v17) :=
    (Pipeline.withArrays_arr spec0 launch0.win.arr_inj c _ _ 2).trans (Cert.Lora.Blocks.final_out m c)
  rw [e]
  exact band_fold (Cert.KernelIdeal.Frame.V m c main_v1) (Cert.KernelIdeal.Frame.V m c main_v17)
    (m ((c.tc : Thread nD τ).loc main_arg0)) W A B off hoff hs (left_rows m c)
    (fun n h r hr => (right_rows m c r h).trans (hw n h r hr))

/-- Stream 0's result buffer ends at the folded projection by the first weight triple, … -/
theorem value_q (m : Cert.Lora.Host.Mem) (c : Dev nD) :
    Pipeline.afterTail₀ cfgs (Cert.KernelIdeal.Frame.dats (F := Ideal) m) 0 (Cert.KernelIdeal.Frame.V0 m) [hostOps1] c main_v20
      = Cert.Lora.projFold (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after (hostOps1 (F := Ideal)) _ (Proc.devRef .tc main_v20) = _
  refine (Cert.Lora.Host.tail_q _).trans ?_
  exact tail_value m c 0 (by omega) _ _ _ _ fun n h r hr => Cert.Lora.Host.wstack_apply0 m c n h r (by omega)

/-- … stream 1's at the one by the second, … -/
theorem value_k (m : Cert.Lora.Host.Mem) (c : Dev nD) :
    Pipeline.afterTail₀ cfgs (Cert.KernelIdeal.Frame.dats (F := Ideal) m) 0 (Cert.KernelIdeal.Frame.V0 m) [hostOps1] c main_v22
      = Cert.Lora.projFold (m ((c.tc : Thread nD τ).loc main_arg0)) (m ((c.tc : Thread nD τ).loc main_arg4)) (m ((c.tc : Thread nD τ).loc main_arg5)) (m ((c.tc : Thread nD τ).loc main_arg6)) := by
  unfold Pipeline.afterTail₀
  show StableHlo.after (hostOps1 (F := Ideal)) _ (Proc.devRef .tc main_v22) = _
  refine (Cert.Lora.Host.tail_k _).trans ?_
  exact tail_value m c 4096 (by omega) _ _ _ _ fun n h r hr => Cert.Lora.Host.wstack_apply1 m c n h r hr

/-- … and stream 2's at the one by the third. -/
theorem value_v (m : Cert.Lora.Host.Mem) (c : Dev nD) :
    Pipeline.afterTail₀ cfgs (Cert.KernelIdeal.Frame.dats (F := Ideal) m) 0 (Cert.KernelIdeal.Frame.V0 m) [hostOps1] c main_v24
      = Cert.Lora.projFold (m ((c.tc : Thread nD τ).loc main_arg0)) (m ((c.tc : Thread nD τ).loc main_arg7)) (m ((c.tc : Thread nD τ).loc main_arg8)) (m ((c.tc : Thread nD τ).loc main_arg9)) := by
  unfold Pipeline.afterTail₀
  show StableHlo.after (hostOps1 (F := Ideal)) _ (Proc.devRef .tc main_v24) = _
  refine (Cert.Lora.Host.tail_v _).trans ?_
  exact tail_value m c 8192 (by omega) _ _ _ _ fun n h r hr => Cert.Lora.Host.wstack_apply2 m c n h r hr

/-! ## The run -/

/-- Every run of the program ends with the three result buffers at the folded projections of the arguments, and the ten
    arguments as launched. -/
theorem results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = Cert.Lora.projFold (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v22) = Cert.Lora.projFold (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v24) = Cert.Lora.projFold (m ((c.tc : Thread nD τ).loc main_arg0)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v20 (Pipeline.mem_restRefs_of main_v20 (by decide) (by decide))).trans (value_q m c),
      ((h c).2 main_v22 (Pipeline.mem_restRefs_of main_v22 (by decide) (by decide))).trans (value_k m c),
      ((h c).2 main_v24 (Pipeline.mem_restRefs_of main_v24 (by decide) (by decide))).trans (value_v m c),
      ((h c).2 main_arg0 (Pipeline.mem_restRefs_of main_arg0 (by decide) (by decide))).trans (Cert.KernelIdeal.Frame.W_main_arg0 m (Cert.KernelIdeal.Frame.dats m) c),
      ((h c).2 main_arg1 (Pipeline.mem_restRefs_of main_arg1 (by decide) (by decide))).trans (Cert.KernelIdeal.Frame.W_main_arg1 m (Cert.KernelIdeal.Frame.dats m) c),
      ((h c).2 main_arg2 (Pipeline.mem_restRefs_of main_arg2 (by decide) (by decide))).trans (Cert.KernelIdeal.Frame.W_main_arg2 m (Cert.KernelIdeal.Frame.dats m) c),
      ((h c).2 main_arg3 (Pipeline.mem_restRefs_of main_arg3 (by decide) (by decide))).trans (Cert.KernelIdeal.Frame.W_main_arg3 m (Cert.KernelIdeal.Frame.dats m) c),
      ((h c).2 main_arg4 (Pipeline.mem_restRefs_of main_arg4 (by decide) (by decide))).trans (Cert.KernelIdeal.Frame.W_main_arg4 m (Cert.KernelIdeal.Frame.dats m) c),
      ((h c).2 main_arg5 (Pipeline.mem_restRefs_of main_arg5 (by decide) (by decide))).trans (Cert.KernelIdeal.Frame.W_main_arg5 m (Cert.KernelIdeal.Frame.dats m) c),
      ((h c).2 main_arg6 (Pipeline.mem_restRefs_of main_arg6 (by decide) (by decide))).trans (Cert.KernelIdeal.Frame.W_main_arg6 m (Cert.KernelIdeal.Frame.dats m) c),
      ((h c).2 main_arg7 (Pipeline.mem_restRefs_of main_arg7 (by decide) (by decide))).trans (Cert.KernelIdeal.Frame.W_main_arg7 m (Cert.KernelIdeal.Frame.dats m) c),
      ((h c).2 main_arg8 (Pipeline.mem_restRefs_of main_arg8 (by decide) (by decide))).trans (Cert.KernelIdeal.Frame.W_main_arg8 m (Cert.KernelIdeal.Frame.dats m) c),
      ((h c).2 main_arg9 (Pipeline.mem_restRefs_of main_arg9 (by decide) (by decide))).trans (Cert.KernelIdeal.Frame.W_main_arg9 m (Cert.KernelIdeal.Frame.dats m) c)⟩)
    (Cert.KernelIdeal.Frame.run_main (F := Ideal) m ρ)

end Cert.Lora.KernelValue

end
-- ==== Proof.Algebra.lean ====
/-
  The two arrangements of a low-rank-corrected projection agree on arrays of real numbers.

  For a token row `x`, a weight row `w`, the rank-`κ` factors `a r h`, `b r` and a scale `t`, all real:

    ∑ h, x h · (w h + t · ∑ r, b r · a r h)  =  ∑ h, x h · w h  +  t · ∑ r, (∑ h, x h · a r h) · b r.

  Left to right: distribute `x h` over the inner sum, split the sum of a sum, pull `t` out, and exchange the two
  finite sums.  The identity is proved once over the reals for arbitrary finite index types, and then carried to the
  extended reals through the coercion `ℝ → EReal`, which commutes with products, sums and finite sums of reals.
-/
import proofs.«109549_j17368847745269_2_alg».proof.Proof.Spec
import Mathlib.Algebra.BigOperators.Ring.Finset
import Mathlib.Data.EReal.Basic
import Mathlib.Tactic.Ring
import Mathlib.Tactic.NormNum

noncomputable section

open scoped BigOperators

namespace Cert.Lora

open Idealize.ShloMosaic Idealize.ShloMosaic.ValueIdx

/-- The real-number identity, over abstract finite index types. -/
theorem real_fold_eq_split {ι κ : Type*} [Fintype ι] [Fintype κ]
    (x w : ι → ℝ) (a : κ → ι → ℝ) (b : κ → ℝ) (t : ℝ) :
    ∑ h, x h * (w h + t * ∑ r, b r * a r h)
      = (∑ h, x h * w h) + t * ∑ r, (∑ h, x h * a r h) * b r := by
  simp only [mul_add, Finset.sum_add_distrib, Finset.mul_sum, Finset.sum_mul]
  congr 1
  rw [Finset.sum_comm]
  exact Finset.sum_congr rfl fun r _ => Finset.sum_congr rfl fun h _ => by ring

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The scale is a real number (the pattern is that of the number 2). -/
theorem two_real : ∃ t : ℝ, two = (t : EReal) := by
  refine ⟨2, ?_⟩
  unfold two
  simp [Ideal.ofBits, Ideal.ieee, -EReal.coe_mul]
  norm_num

/-- On arrays of real numbers the folded and the split arrangement are the same array. -/
theorem projFold_eq_projSplit (X : Tok) (W : Wt) (A : Dn) (B : Up)
    (hX : ∀ i, ∃ x : ℝ, X i = (x : EReal)) (hW : ∀ i, ∃ x : ℝ, W i = (x : EReal))
    (hA : ∀ i, ∃ x : ℝ, A i = (x : EReal)) (hB : ∀ i, ∃ x : ℝ, B i = (x : EReal)) :
    projFold X W A B = projSplit X W A B := by
  choose x hx using hX
  choose w hw using hW
  choose a ha using hA
  choose b hb using hB
  obtain ⟨t, ht⟩ := two_real
  obtain rfl : X = fun i => (x i : EReal) := funext hx
  obtain rfl : W = fun i => (w i : EReal) := funext hw
  obtain rfl : A = fun i => (a i : EReal) := funext ha
  obtain rfl : B = fun i => (b i : EReal) := funext hb
  funext i
  show (∑ h : Fin 4096, (x (ix3 (i 0) (i 1) h) : EReal)
          * ((w (ix2 (i 2) h) : EReal) + two * ∑ r : Fin 16, (b (ix2 (i 2) r) : EReal) * (a (ix2 r h) : EReal)))
      = (∑ h : Fin 4096, (x (ix3 (i 0) (i 1) h) : EReal) * (w (ix2 (i 2) h) : EReal))
          + two * ∑ r : Fin 16, (∑ h : Fin 4096, (x (ix3 (i 0) (i 1) h) : EReal) * (a (ix2 r h) : EReal))
              * (b (ix2 (i 2) r) : EReal)
  rw [ht]
  simp only [← EReal.coe_mul, ← coe_sum, ← EReal.coe_add]
  exact congrArg _ (real_fold_eq_split (fun h => x (ix3 (i 0) (i 1) h)) (fun h => w (ix2 (i 2) h))
    (fun r h => a (ix2 r h)) (fun r => b (ix2 (i 2) r)) t)

end Cert.Lora

end
-- ==== Proof.RefValue.lean ====
/-
  The reference computes the split arrangement.

  Each of the reference's three results is, entry by entry,

    (∑ h, X(b,s,h) · W(n,h))  +  two · ∑ r, (∑ h, X(b,s,h) · A(r,h)) · B(n,r),

  that is `projSplit X W A B`: three contractions (token rows against the base weight, token rows against the
  down-projection, the rank-16 intermediate against the up-projection), a broadcast scalar `two`, one product and one
  sum.  Reading each contraction at an index gives a finite sum whose operand indices are the coordinates of the
  result index and the summation variable; the only work is to recognise those index functions as the coordinate
  tuples the specification uses.  The three streams run the same operations on different arguments, so the second
  and third follow from the first.
-/
import proofs.«109549_j17368847745269_2_alg».proof.Proof.Spec
import proofs.«109549_j17368847745269_2_alg».proof.Proof.Gen.ReferenceIdeal.Read

noncomputable section

open scoped BigOperators

namespace Cert.Lora.RefValue

open Idealize.ShloMosaic Idealize.ShloMosaic.ValueIdx Cert.ReferenceIdeal Cert.ReferenceIdeal.Read

/-- The first stream: base product plus the scaled product through the rank-16 bottleneck. -/
theorem ref_q (x0 : (⟨S4x2048x4096, .f32⟩ : BufTy).Contents (Elt Ideal))
    (x1 : (⟨S4096x4096, .f32⟩ : BufTy).Contents (Elt Ideal))
    (x2 : (⟨S16x4096, .f32⟩ : BufTy).Contents (Elt Ideal))
    (x3 : (⟨S4096x16, .f32⟩ : BufTy).Contents (Elt Ideal)) :
    val_main_v5 (F := Ideal) x0 x1 x2 x3 = projSplit x0 x1 x2 x3 := by
  funext i
  -- the operand indices of the three contractions, as coordinate tuples
  have eL0 : ∀ k : Fin 4096, lidx_main_v0 i k = ix3 (i 0) (i 1) k := fun k => funext fun a => by
    match a with | ⟨0, _⟩ => rfl | ⟨1, _⟩ => rfl | ⟨2, _⟩ => rfl
  have eR0 : ∀ k : Fin 4096, ridx_main_v0 i k = ix2 (i 2) k := fun k => funext fun a => by
    match a with | ⟨0, _⟩ => rfl | ⟨1, _⟩ => rfl
  have eL2 : ∀ r : Fin 16, lidx_main_v2 i r = ix3 (i 0) (i 1) r := fun r => funext fun a => by
    match a with | ⟨0, _⟩ => rfl | ⟨1, _⟩ => rfl | ⟨2, _⟩ => rfl
  have eR2 : ∀ r : Fin 16, ridx_main_v2 i r = ix2 (i 2) r := fun r => funext fun a => by
    match a with | ⟨0, _⟩ => rfl | ⟨1, _⟩ => rfl
  have eL1 : ∀ (r : Fin 16) (k : Fin 4096),
      lidx_main_v1 (ix3 (i 0) (i 1) r) k = ix3 (i 0) (i 1) k := fun r k => funext fun a => by
    match a with | ⟨0, _⟩ => rfl | ⟨1, _⟩ => rfl | ⟨2, _⟩ => rfl
  have eR1 : ∀ (r : Fin 16) (k : Fin 4096),
      ridx_main_v1 (ix3 (i 0) (i 1) r) k = ix2 r k := fun r k => funext fun a => by
    match a with | ⟨0, _⟩ => rfl | ⟨1, _⟩ => rfl
  rw [val_main_v5_apply, val_main_v0_apply, val_main_v4_apply, val_main_v3_apply, val_main_cst_apply,
    val_main_v2_apply]
  simp only [val_main_v1_apply, Ideal.addf_def, Ideal.mulf_def, Ideal.ofBits_def]
  unfold projSplit two
  refine congrArg₂ (· + ·) (Finset.sum_congr rfl fun k _ => ?_)
    (congrArg _ (Finset.sum_congr rfl fun r _ => ?_))
  · rw [eL0 k, eR0 k]
    rfl
  · rw [eL2 r, eR2 r]
    refine congrArg (· * _) (Finset.sum_congr rfl fun k _ => ?_)
    rw [eL1 r k, eR1 r k]
    rfl

/-- The second stream runs the same operations as the first. -/
theorem ref_k (x0 : (⟨S4x2048x4096, .f32⟩ : BufTy).Contents (Elt Ideal))
    (x4 : (⟨S4096x4096, .f32⟩ : BufTy).Contents (Elt Ideal))
    (x5 : (⟨S16x4096, .f32⟩ : BufTy).Contents (Elt Ideal))
    (x6 : (⟨S4096x16, .f32⟩ : BufTy).Contents (Elt Ideal)) :
    val_main_v11 (F := Ideal) x0 x4 x5 x6 = projSplit x0 x4 x5 x6 :=
  (val_main_v11_eq (F := Ideal) x0 x4 x5 x6).symm.trans
    ((val_main_v5_eq (F := Ideal) x0 x4 x5 x6).trans (ref_q x0 x4 x5 x6))

/-- The third stream runs the same operations as the first. -/
theorem ref_v (x0 : (⟨S4x2048x4096, .f32⟩ : BufTy).Contents (Elt Ideal))
    (x7 : (⟨S4096x4096, .f32⟩ : BufTy).Contents (Elt Ideal))
    (x8 : (⟨S16x4096, .f32⟩ : BufTy).Contents (Elt Ideal))
    (x9 : (⟨S4096x16, .f32⟩ : BufTy).Contents (Elt Ideal)) :
    val_main_v17 (F := Ideal) x0 x7 x8 x9 = projSplit x0 x7 x8 x9 :=
  (val_main_v17_eq (F := Ideal) x0 x7 x8 x9).symm.trans
    ((val_main_v5_eq (F := Ideal) x0 x7 x8 x9).trans (ref_q x0 x7 x8 x9))

end Cert.Lora.RefValue

end
-- ==== Proof.Finite.lean ====
/-
  From the finiteness precondition to "every entry is a real number".

  The precondition is the conjunction, over the ten argument arrays, of "every entry `x` has `|x| < +∞`", where
  `|x|` is `max x (-x)` on the extended reals and `+∞` is spelled by its bit pattern.  An extended real whose absolute
  value is below `⊤` is neither `⊤` (then `|x| = ⊤`) nor `⊥` (then `-x = ⊤`), hence the coercion of a real.
  A conjunction over a whole array that holds gives the fact at each entry, and the ten conjuncts are peeled off one
  by one.
-/
import proofs.«109549_j17368847745269_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Lora.Finite

open Idealize.ShloMosaic Idealize.ShloMosaic.ValueIdx Cert.Pre_finite_inputs

/-- The scalar shape has one index. -/
instance : Subsingleton S_.Idx := ⟨fun a b => funext fun d => d.elim0⟩

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern of `+∞`. -/
theorem inf_pattern : Ideal.ofBits .f32 0x7F800000#32 = (⊤ : EReal) := by
  simp [Ideal.ofBits, Ideal.ieee]

/-- One entry: the comparison `|x| < +∞` answering 1 says `x` is a real number. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : BitVec.ofBool (decide (max x (-x) < Ideal.ofBits .f32 0x7F800000#32)) = 1#1 := h
  rw [inf_pattern] at h'
  by_contra hn
  rw [decide_eq_false hn] at h'
  exact absurd h' (by decide)

/-- One array: the conjunction of `|x| < +∞` over all its entries answering 1 makes every entry a real number. -/
theorem array_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) :
    ∀ i, ∃ r : ℝ, x i = (r : EReal) := by
  intro i
  have hi := Host.reduce_andi_all _ _ hr hu ix0 e i
  rw [cmpf_apply, broadcastInDim_apply (![] : Fin 0 → Fin s.rank) hb _ i ix0 (fun a => a.elim0), constant_apply] at hi
  exact real_of_cmp (x i) hi

/-- The precondition at the exact instance: every entry of each of the ten arrays is a real number. -/
theorem entries_real [Cert.Pre_finite_inputs.Facts]
    (a0 : FVec Ideal S4x2048x4096 .f32) (a1 : FVec Ideal S4096x4096 .f32) (a2 : FVec Ideal S16x4096 .f32)
    (a3 : FVec Ideal S4096x16 .f32) (a4 : FVec Ideal S4096x4096 .f32) (a5 : FVec Ideal S16x4096 .f32)
    (a6 : FVec Ideal S4096x16 .f32) (a7 : FVec Ideal S4096x4096 .f32) (a8 : FVec Ideal S16x4096 .f32)
    (a9 : FVec Ideal S4096x16 .f32)
    (h : Cert.Pre_finite_inputs.fn (F := Ideal) a0 a1 a2 a3 a4 a5 a6 a7 a8 a9 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal))
      ∧ (∀ i, ∃ x : ℝ, a6 i = (x : EReal)) ∧ (∀ i, ∃ x : ℝ, a7 i = (x : EReal)) ∧ (∀ i, ∃ x : ℝ, a8 i = (x : EReal))
      ∧ (∀ i, ∃ x : ℝ, a9 i = (x : EReal)) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨h0, h1⟩, h2⟩, h3⟩, h4⟩, h5⟩, h6⟩, h7⟩, h8⟩, h9⟩ := h0
  exact ⟨array_real a0 _ _ _ h0, array_real a1 _ _ _ h1, array_real a2 _ _ _ h2, array_real a3 _ _ _ h3,
    array_real a4 _ _ _ h4, array_real a5 _ _ _ h5, array_real a6 _ _ _ h6, array_real a7 _ _ _ h7,
    array_real a8 _ _ _ h8, array_real a9 _ _ _ h9⟩

end Cert.Lora.Finite

end
-- ==== Proof.Claims.lean ====
/-
  The five claims of the certificate, one theorem each.

  The two frame claims of the kernel are its frame theorems; the reference's frame is the tail of its run.  The
  value claim chains four facts: the kernel's results are the folded arrangement `projFold` of its arguments; the
  reference's are the split arrangement `projSplit` of its own; the precondition makes every argument entry a real
  number; and on real-valued arrays `projFold = projSplit`.
-/
import proofs.«109549_j17368847745269_2_alg».proof.Defs
import proofs.«109549_j17368847745269_2_alg».proof.Proof.Gen.Kernel
import proofs.«109549_j17368847745269_2_alg».proof.Proof.Gen.KernelIdeal
import proofs.«109549_j17368847745269_2_alg».proof.Proof.Gen.ReferenceIdeal
import proofs.«109549_j17368847745269_2_alg».proof.Proof.Gen.Pre_finite_inputs
import proofs.«109549_j17368847745269_2_alg».proof.Proof.Gen.ReferenceIdeal.Run
import proofs.«109549_j17368847745269_2_alg».proof.Proof.Gen.ReferenceIdeal.Read
import proofs.«109549_j17368847745269_2_alg».proof.Proof.FrameB.Frame
import proofs.«109549_j17368847745269_2_alg».proof.Proof.FrameI.Frame
import proofs.«109549_j17368847745269_2_alg».proof.Proof.KernelValue
import proofs.«109549_j17368847745269_2_alg».proof.Proof.Algebra
import proofs.«109549_j17368847745269_2_alg».proof.Proof.RefValue
import proofs.«109549_j17368847745269_2_alg».proof.Proof.Finite

noncomputable section

namespace Cert.Proof.Claims

open Idealize.ShloMosaic Idealize.ShloMosaic.TcCoe Idealize.SL.Sem
open Cert.Lora

/-- One stream of the comparison: the split arrangement of arrays equal to real-valued ones is the folded
    arrangement of those. -/
theorem split_eq_fold (X' X : Tok) (W' W : Wt) (A' A : Dn) (B' B : Up)
    (eX : X' = X) (eW : W' = W) (eA : A' = A) (eB : B' = B)
    (hX : ∀ i, ∃ x : ℝ, X i = (x : EReal)) (hW : ∀ i, ∃ x : ℝ, W i = (x : EReal))
    (hA : ∀ i, ∃ x : ℝ, A i = (x : EReal)) (hB : ∀ i, ∃ x : ℝ, B i = (x : EReal)) :
    projSplit X' W' A' B' = projFold X W A B := by
  subst eX eW eA eB
  exact (projFold_eq_projSplit _ _ _ _ hX hW hA hB).symm

/-- The kernel at the word level runs and leaves its arguments unchanged. -/
theorem frame_k : Cert.frame_Kernel := fun m ρ _ => Cert.Kernel.Frame.frame m ρ

/-- The kernel at the exact instance runs and leaves its arguments unchanged. -/
theorem frame_ki : Cert.frame_KernelIdeal := fun m ρ _ => Cert.KernelIdeal.Frame.frame m ρ

/-- The reference runs and leaves its arguments unchanged: the tail of its run's postcondition. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- The idealization rewrote no operation, so there is nothing to restate. -/
theorem preserves : Cert.preserves_Kernel_KernelIdeal := trivial

/-- At the exact instance, from memories agreeing on the arguments: the kernel's three results are the folded
    arrangement of its arguments, the reference's the split arrangement of its own, the arguments are real-valued by
    the precondition, and on real-valued arrays the two arrangements are one array. -/
theorem algebraic : Cert.algebraic_KernelIdeal_ReferenceIdeal := by
  intro m ρ m' ρ' hpre hagree
  refine ⟨_, _, _, Cert.Lora.KernelValue.results m ρ, ?_⟩
  refine (θ_run Cert.ReferenceIdeal.defs _ _).mono (fun _ h c => ?_)
    (Cert.ReferenceIdeal.Value.run (F := Ideal) m' ρ')
  obtain ⟨f0, f1, f2, f3, f4, f5, f6, f7, f8, f9⟩ :=
    Cert.Lora.Finite.entries_real _ _ _ _ _ _ _ _ _ _ (hpre c)
  obtain ⟨g0, g1, g2, g3, g4, g5, g6, g7, g8, g9⟩ := hagree c
  obtain ⟨r5, r11, r17, rest⟩ := h c
  refine ⟨r5.trans ?_, r11.trans ?_, r17.trans ?_, rest⟩
  · exact ((Cert.ReferenceIdeal.Read.val_main_v5_eq (F := Ideal) _ _ _ _).trans
      (Cert.Lora.RefValue.ref_q _ _ _ _)).trans (split_eq_fold _ _ _ _ _ _ _ _ g0 g1 g2 g3 f0 f1 f2 f3)
  · exact ((Cert.ReferenceIdeal.Read.val_main_v11_eq (F := Ideal) _ _ _ _).trans
      (Cert.Lora.RefValue.ref_k _ _ _ _)).trans (split_eq_fold _ _ _ _ _ _ _ _ g0 g4 g5 g6 f0 f4 f5 f6)
  · exact ((Cert.ReferenceIdeal.Read.val_main_v17_eq (F := Ideal) _ _ _ _).trans
      (Cert.Lora.RefValue.ref_v _ _ _ _)).trans (split_eq_fold _ _ _ _ _ _ _ _ g0 g7 g8 g9 f0 f7 f8 f9)

end Cert.Proof.Claims

end
-- ==== Proof.lean ====
/-
  Three fused projections with a low-rank correction folded into the weights, against the same projections computed
  as a base product plus a product through the rank-16 bottleneck.

  The kernel program flattens the activations `X` to 8192 token rows, folds each correction into its weight
  (`W + two · (B · A)`), stacks the three corrected weights into one 12288-row matrix, and runs ONE blocked product
  `X · Wstackᵀ` on an 8 × 12 × 2 grid: for each of the 8 × 12 result blocks the contracted axis is walked in two halves,
  an accumulator cleared on the first half, added to on both, and copied into the result block on the second.  The three
  column bands of the product, with the batch axis restored, are the results.  The reference contracts `X` with `W`, and
  separately with `A` then `B`, and adds the second, scaled by `two`, to the first.

  On the extended reals the two agree entry by entry when every input entry is a real number — which the precondition
  says —: `∑ h, x h · (W(n,h) + two · ∑ r, B(n,r) · A(r,h)) = ∑ h, x h · W(n,h) + two · ∑ r, (∑ h, x h · A(r,h)) · B(n,r)`,
  by distributing `x h`, exchanging the two finite sums and moving `two` across a sum (Proof/Algebra.lean; the steps
  fail at the infinities, hence the finiteness).  Changes of float format are the identity on the extended reals, a
  block product into a cleared accumulator is the plain sum, and the two half sums make the whole sum.

  The modules: Proof/Spec.lean (the two arrangements as functions of the argument arrays), Proof/Algebra.lean (their
  equality on real entries), Proof/Finite.lean (the precondition gives real entries), Proof/RefValue.lean (the
  reference's results are the split arrangement), Proof/FrameI/ and Proof/FrameB/ (the call's frame, for the
  idealized and the word-level program: both run to the end, fault nowhere and leave their arguments unchanged),
  Proof/FrameI/Pieces.lean, Proof/BlockMath.lean and Proof/Blocks.lean (what the accumulator and the result blocks
  hold, and the result array as one function of the two arrays the call reads), Proof/HostSide.lean (the lines around
  the call, read at an index), Proof/KernelValue.lean (the kernel's results are the folded arrangement),
  Proof/Claims.lean (the five claims).
-/
import proofs.«109549_j17368847745269_2_alg».proof.Defs
import proofs.«109549_j17368847745269_2_alg».proof.Proof.Gen.Kernel
import proofs.«109549_j17368847745269_2_alg».proof.Proof.Gen.KernelIdeal
import proofs.«109549_j17368847745269_2_alg».proof.Proof.Gen.ReferenceIdeal
import proofs.«109549_j17368847745269_2_alg».proof.Proof.Gen.Pre_finite_inputs
import proofs.«109549_j17368847745269_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri,
    Cert.Proof.Claims.preserves, Cert.Proof.Claims.algebraic⟩

end Cert.Proof

end
